-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x224x224x8x8 : Shape := ⟨5, ![8, 224, 224, 8, 8]⟩
abbrev S_ : Shape := ⟨0, ![]⟩

class Facts : Prop where
  bcast_S_S8x224x224x8x8 : S_.BroadcastsInDim S8x224x224x8x8 (![] : Fin 0 → Fin S8x224x224x8x8.rank)
  reducesTo_S8x224x224x8x8_S_d0_1_2_3_4 : S8x224x224x8x8.ReducesTo [0, 1, 2, 3, 4] S_
  h_S_ : 0 < S_.numel

variable [Facts]

def fn {F : FTy → Type} [FloatOps F] (main_arg0 : FVec F S8x224x224x8x8 .f32) : IVec S_ 1 :=
  let main_v0 : FVec F S8x224x224x8x8 .f32 := Host.absf main_arg0
  let main_cst : FVec F S_ .f32 := constant S_ .f32 0x7F800000#32
  let main_v1 : FVec F S8x224x224x8x8 .f32 := broadcastInDim S8x224x224x8x8 ![] bcast_S_S8x224x224x8x8 main_cst
  let main_v2 : IVec S8x224x224x8x8 1 := cmpf .olt main_v0 main_v1
  let main_c : IVec S_ 1 := constantI S_ 1 1#1
  let main_v3 : IVec S_ 1 := (fun x v => Host.reduce IntOp.andi x v reducesTo_S8x224x224x8x8_S_d0_1_2_3_4 h_S_) main_v2 main_c
  main_v3
-- ==== Kernel.lean ====
abbrev S8x224x224x8x8 : Shape := ⟨5, ![8, 224, 224, 8, 8]⟩
abbrev S8x224x224x64 : Shape := ⟨4, ![8, 224, 224, 64]⟩
abbrev S8x8x8x10 : Shape := ⟨4, ![8, 8, 8, 10]⟩
abbrev S1x224x224x64 : Shape := ⟨4, ![1, 224, 224, 64]⟩
abbrev S1x8x8x10 : Shape := ⟨4, ![1, 8, 8, 10]⟩
abbrev S224x224x64 : Shape := ⟨3, ![224, 224, 64]⟩
abbrev S224x64 : Shape := ⟨2, ![224, 64]⟩
abbrev S64 : Shape := ⟨1, ![64]⟩
abbrev S64x1 : Shape := ⟨2, ![64, 1]⟩
abbrev S224x223x64 : Shape := ⟨3, ![224, 223, 64]⟩
abbrev S223x223x64 : Shape := ⟨3, ![223, 223, 64]⟩
abbrev S223x64 : Shape := ⟨2, ![223, 64]⟩
abbrev S224x222x64 : Shape := ⟨3, ![224, 222, 64]⟩
abbrev S222x222x64 : Shape := ⟨3, ![222, 222, 64]⟩
abbrev S222x64 : Shape := ⟨2, ![222, 64]⟩
abbrev S224x221x64 : Shape := ⟨3, ![224, 221, 64]⟩
abbrev S221x221x64 : Shape := ⟨3, ![221, 221, 64]⟩
abbrev S221x64 : Shape := ⟨2, ![221, 64]⟩
abbrev S224x220x64 : Shape := ⟨3, ![224, 220, 64]⟩
abbrev S220x220x64 : Shape := ⟨3, ![220, 220, 64]⟩
abbrev S220x64 : Shape := ⟨2, ![220, 64]⟩
abbrev S224x219x64 : Shape := ⟨3, ![224, 219, 64]⟩
abbrev S219x219x64 : Shape := ⟨3, ![219, 219, 64]⟩
abbrev S219x64 : Shape := ⟨2, ![219, 64]⟩
abbrev S224x218x64 : Shape := ⟨3, ![224, 218, 64]⟩
abbrev S218x218x64 : Shape := ⟨3, ![218, 218, 64]⟩
abbrev S218x64 : Shape := ⟨2, ![218, 64]⟩
abbrev S224x217x64 : Shape := ⟨3, ![224, 217, 64]⟩
abbrev S217x217x64 : Shape := ⟨3, ![217, 217, 64]⟩
abbrev S217x64 : Shape := ⟨2, ![217, 64]⟩
abbrev S224x216x64 : Shape := ⟨3, ![224, 216, 64]⟩
abbrev S216x216x64 : Shape := ⟨3, ![216, 216, 64]⟩
abbrev S216x64 : Shape := ⟨2, ![216, 64]⟩
abbrev S224x215x64 : Shape := ⟨3, ![224, 215, 64]⟩
abbrev S215x215x64 : Shape := ⟨3, ![215, 215, 64]⟩
abbrev S215x64 : Shape := ⟨2, ![215, 64]⟩
abbrev S64x10 : Shape := ⟨2, ![64, 10]⟩
abbrev S8x8x10 : Shape := ⟨3, ![8, 8, 10]⟩

abbrev nBuf : Space → Nat
  | .hbm => 3
  | .vmem => 3
  | .smem => 0
  | _ => 0

abbrev bufTy : (tb : Table) → Fin (tcTables nBuf tb) → BufTy
  | .hbm, ⟨0, _⟩ => ⟨S8x224x224x8x8, .f32⟩
  | .hbm, ⟨1, _⟩ => ⟨S8x224x224x64, .f32⟩
  | .hbm, ⟨2, _⟩ => ⟨S8x8x8x10, .f32⟩
  | .local _ .vmem, ⟨0, _⟩ => ⟨S1x224x224x64, .f32⟩
  | .local _ .vmem, ⟨1, _⟩ => ⟨S1x8x8x10, .f32⟩
  | .local _ .vmem, ⟨2, _⟩ => ⟨S1x8x8x10, .f32⟩
  | _, _ => ⟨S8x224x224x8x8, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x224x224x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S1x8x8x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x224x224x8x8_S8x224x224x64 : S8x224x224x8x8.ShapeCasts S8x224x224x64
  inb_S1x224x224x64_S1x224x224x64_0_0_0_0 : ∀ a, (![0, 0, 0, 0] : Fin 4 → Nat) a + S1x224x224x64.size a ≤ S1x224x224x64.size a
  h_S1x224x224x64 : 0 < S1x224x224x64.numel
  shapeCasts_S1x224x224x64_S224x224x64 : S1x224x224x64.ShapeCasts S224x224x64
  reduces_S224x224x64_S224x64 : S224x224x64.Reduces [0] S224x64
  reduces_S224x64_S64 : S224x64.Reduces [0] S64
  shapeCasts_S64_S64x1 : S64.ShapeCasts S64x1
  slices_S224x224x64_o0_0_0_S224x223x64 : S224x224x64.Slices ![0, 0, 0] S224x223x64
  slices_S224x224x64_o0_1_0_S224x223x64 : S224x224x64.Slices ![0, 1, 0] S224x223x64
  slices_S224x223x64_o0_0_0_S223x223x64 : S224x223x64.Slices ![0, 0, 0] S223x223x64
  slices_S224x223x64_o1_0_0_S223x223x64 : S224x223x64.Slices ![1, 0, 0] S223x223x64
  reduces_S223x223x64_S223x64 : S223x223x64.Reduces [0] S223x64
  reduces_S223x64_S64 : S223x64.Reduces [0] S64
  slices_S224x223x64_o0_0_0_S224x222x64 : S224x223x64.Slices ![0, 0, 0] S224x222x64
  slices_S224x224x64_o0_2_0_S224x222x64 : S224x224x64.Slices ![0, 2, 0] S224x222x64
  slices_S224x222x64_o0_0_0_S222x222x64 : S224x222x64.Slices ![0, 0, 0] S222x222x64
  slices_S224x222x64_o1_0_0_S222x222x64 : S224x222x64.Slices ![1, 0, 0] S222x222x64
  slices_S224x222x64_o2_0_0_S222x222x64 : S224x222x64.Slices ![2, 0, 0] S222x222x64
  reduces_S222x222x64_S222x64 : S222x222x64.Reduces [0] S222x64
  reduces_S222x64_S64 : S222x64.Reduces [0] S64
  slices_S224x222x64_o0_0_0_S224x221x64 : S224x222x64.Slices ![0, 0, 0] S224x221x64
  slices_S224x224x64_o0_3_0_S224x221x64 : S224x224x64.Slices ![0, 3, 0] S224x221x64
  slices_S224x221x64_o0_0_0_S221x221x64 : S224x221x64.Slices ![0, 0, 0] S221x221x64
  slices_S224x221x64_o1_0_0_S221x221x64 : S224x221x64.Slices ![1, 0, 0] S221x221x64
  slices_S224x221x64_o2_0_0_S221x221x64 : S224x221x64.Slices ![2, 0, 0] S221x221x64
  slices_S224x221x64_o3_0_0_S221x221x64 : S224x221x64.Slices ![3, 0, 0] S221x221x64
  reduces_S221x221x64_S221x64 : S221x221x64.Reduces [0] S221x64
  reduces_S221x64_S64 : S221x64.Reduces [0] S64
  slices_S224x221x64_o0_0_0_S224x220x64 : S224x221x64.Slices ![0, 0, 0] S224x220x64
  slices_S224x224x64_o0_4_0_S224x220x64 : S224x224x64.Slices ![0, 4, 0] S224x220x64
  slices_S224x220x64_o0_0_0_S220x220x64 : S224x220x64.Slices ![0, 0, 0] S220x220x64
  slices_S224x220x64_o1_0_0_S220x220x64 : S224x220x64.Slices ![1, 0, 0] S220x220x64
  slices_S224x220x64_o2_0_0_S220x220x64 : S224x220x64.Slices ![2, 0, 0] S220x220x64
  slices_S224x220x64_o3_0_0_S220x220x64 : S224x220x64.Slices ![3, 0, 0] S220x220x64
  slices_S224x220x64_o4_0_0_S220x220x64 : S224x220x64.Slices ![4, 0, 0] S220x220x64
  reduces_S220x220x64_S220x64 : S220x220x64.Reduces [0] S220x64
  reduces_S220x64_S64 : S220x64.Reduces [0] S64
  slices_S224x220x64_o0_0_0_S224x219x64 : S224x220x64.Slices ![0, 0, 0] S224x219x64
  slices_S224x224x64_o0_5_0_S224x219x64 : S224x224x64.Slices ![0, 5, 0] S224x219x64
  slices_S224x219x64_o0_0_0_S219x219x64 : S224x219x64.Slices ![0, 0, 0] S219x219x64
  slices_S224x219x64_o1_0_0_S219x219x64 : S224x219x64.Slices ![1, 0, 0] S219x219x64
  slices_S224x219x64_o2_0_0_S219x219x64 : S224x219x64.Slices ![2, 0, 0] S219x219x64
  slices_S224x219x64_o3_0_0_S219x219x64 : S224x219x64.Slices ![3, 0, 0] S219x219x64
  slices_S224x219x64_o4_0_0_S219x219x64 : S224x219x64.Slices ![4, 0, 0] S219x219x64
  slices_S224x219x64_o5_0_0_S219x219x64 : S224x219x64.Slices ![5, 0, 0] S219x219x64
  reduces_S219x219x64_S219x64 : S219x219x64.Reduces [0] S219x64
  reduces_S219x64_S64 : S219x64.Reduces [0] S64
  slices_S224x219x64_o0_0_0_S224x218x64 : S224x219x64.Slices ![0, 0, 0] S224x218x64
  slices_S224x224x64_o0_6_0_S224x218x64 : S224x224x64.Slices ![0, 6, 0] S224x218x64
  slices_S224x218x64_o0_0_0_S218x218x64 : S224x218x64.Slices ![0, 0, 0] S218x218x64
  slices_S224x218x64_o1_0_0_S218x218x64 : S224x218x64.Slices ![1, 0, 0] S218x218x64
  slices_S224x218x64_o2_0_0_S218x218x64 : S224x218x64.Slices ![2, 0, 0] S218x218x64
  slices_S224x218x64_o3_0_0_S218x218x64 : S224x218x64.Slices ![3, 0, 0] S218x218x64
  slices_S224x218x64_o4_0_0_S218x218x64 : S224x218x64.Slices ![4, 0, 0] S218x218x64
  slices_S224x218x64_o5_0_0_S218x218x64 : S224x218x64.Slices ![5, 0, 0] S218x218x64
  slices_S224x218x64_o6_0_0_S218x218x64 : S224x218x64.Slices ![6, 0, 0] S218x218x64
  reduces_S218x218x64_S218x64 : S218x218x64.Reduces [0] S218x64
  reduces_S218x64_S64 : S218x64.Reduces [0] S64
  slices_S224x218x64_o0_0_0_S224x217x64 : S224x218x64.Slices ![0, 0, 0] S224x217x64
  slices_S224x224x64_o0_7_0_S224x217x64 : S224x224x64.Slices ![0, 7, 0] S224x217x64
  slices_S224x217x64_o0_0_0_S217x217x64 : S224x217x64.Slices ![0, 0, 0] S217x217x64
  slices_S224x217x64_o1_0_0_S217x217x64 : S224x217x64.Slices ![1, 0, 0] S217x217x64
  slices_S224x217x64_o2_0_0_S217x217x64 : S224x217x64.Slices ![2, 0, 0] S217x217x64
  slices_S224x217x64_o3_0_0_S217x217x64 : S224x217x64.Slices ![3, 0, 0] S217x217x64
  slices_S224x217x64_o4_0_0_S217x217x64 : S224x217x64.Slices ![4, 0, 0] S217x217x64
  slices_S224x217x64_o5_0_0_S217x217x64 : S224x217x64.Slices ![5, 0, 0] S217x217x64
  slices_S224x217x64_o6_0_0_S217x217x64 : S224x217x64.Slices ![6, 0, 0] S217x217x64
  slices_S224x217x64_o7_0_0_S217x217x64 : S224x217x64.Slices ![7, 0, 0] S217x217x64
  reduces_S217x217x64_S217x64 : S217x217x64.Reduces [0] S217x64
  reduces_S217x64_S64 : S217x64.Reduces [0] S64
  slices_S224x217x64_o0_0_0_S224x216x64 : S224x217x64.Slices ![0, 0, 0] S224x216x64
  slices_S224x224x64_o0_8_0_S224x216x64 : S224x224x64.Slices ![0, 8, 0] S224x216x64
  slices_S224x216x64_o0_0_0_S216x216x64 : S224x216x64.Slices ![0, 0, 0] S216x216x64
  slices_S224x216x64_o1_0_0_S216x216x64 : S224x216x64.Slices ![1, 0, 0] S216x216x64
  slices_S224x216x64_o2_0_0_S216x216x64 : S224x216x64.Slices ![2, 0, 0] S216x216x64
  slices_S224x216x64_o3_0_0_S216x216x64 : S224x216x64.Slices ![3, 0, 0] S216x216x64
  slices_S224x216x64_o4_0_0_S216x216x64 : S224x216x64.Slices ![4, 0, 0] S216x216x64
  slices_S224x216x64_o5_0_0_S216x216x64 : S224x216x64.Slices ![5, 0, 0] S216x216x64
  slices_S224x216x64_o6_0_0_S216x216x64 : S224x216x64.Slices ![6, 0, 0] S216x216x64
  slices_S224x216x64_o7_0_0_S216x216x64 : S224x216x64.Slices ![7, 0, 0] S216x216x64
  slices_S224x216x64_o8_0_0_S216x216x64 : S224x216x64.Slices ![8, 0, 0] S216x216x64
  reduces_S216x216x64_S216x64 : S216x216x64.Reduces [0] S216x64
  reduces_S216x64_S64 : S216x64.Reduces [0] S64
  slices_S224x216x64_o0_0_0_S224x215x64 : S224x216x64.Slices ![0, 0, 0] S224x215x64
  slices_S224x224x64_o0_9_0_S224x215x64 : S224x224x64.Slices ![0, 9, 0] S224x215x64
  slices_S224x215x64_o0_0_0_S215x215x64 : S224x215x64.Slices ![0, 0, 0] S215x215x64
  slices_S224x215x64_o1_0_0_S215x215x64 : S224x215x64.Slices ![1, 0, 0] S215x215x64
  slices_S224x215x64_o2_0_0_S215x215x64 : S224x215x64.Slices ![2, 0, 0] S215x215x64
  slices_S224x215x64_o3_0_0_S215x215x64 : S224x215x64.Slices ![3, 0, 0] S215x215x64
  slices_S224x215x64_o4_0_0_S215x215x64 : S224x215x64.Slices ![4, 0, 0] S215x215x64
  slices_S224x215x64_o5_0_0_S215x215x64 : S224x215x64.Slices ![5, 0, 0] S215x215x64
  slices_S224x215x64_o6_0_0_S215x215x64 : S224x215x64.Slices ![6, 0, 0] S215x215x64
  slices_S224x215x64_o7_0_0_S215x215x64 : S224x215x64.Slices ![7, 0, 0] S215x215x64
  slices_S224x215x64_o8_0_0_S215x215x64 : S224x215x64.Slices ![8, 0, 0] S215x215x64
  slices_S224x215x64_o9_0_0_S215x215x64 : S224x215x64.Slices ![9, 0, 0] S215x215x64
  reduces_S215x215x64_S215x64 : S215x215x64.Reduces [0] S215x64
  reduces_S215x64_S64 : S215x64.Reduces [0] S64
  concatenates_S64x1_S64x1_S64x1_S64x1_S64x1_S64x1_S64x1_S64x1_S64x1_S64x1_S64x10_d1 : Shape.Concatenates [S64x1, S64x1, S64x1, S64x1, S64x1, S64x1, S64x1, S64x1, S64x1, S64x1] S64x10 1
  shapeCasts_S64x10_S8x8x10 : S64x10.ShapeCasts S8x8x10
  inb_S1x8x8x10_S1x8x8x10_0_0_0_0 : ∀ a, (![0, 0, 0, 0] : Fin 4 → Nat) a + S1x8x8x10.size a ≤ S1x8x8x10.size a
  h_S1x8x8x10 : 0 < S1x8x8x10.numel
  shapeCasts_S1x8x8x10_S8x8x10 : S1x8x8x10.ShapeCasts S8x8x10
  shapeCasts_S8x8x10_S1x8x8x10 : S8x8x10.ShapeCasts S1x8x8x10
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x224x224x64.size a ≤ S8x224x224x64.size a
  hwx0_0 : ∀ i : grid0.Coords, EltTy.bits .f32 = 32 ∨ (Rect.block (s := S8x224x224x64) S1x224x224x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x8x10.size a ≤ S8x8x8x10.size a
  hwx0_1 : ∀ i : grid0.Coords, EltTy.bits .f32 = 32 ∨ (Rect.block (s := S8x8x8x10) S1x8x8x10.size (cc0_transform_1 i) (hinb0_1 i)).WholeWords (EltTy.packing .f32)

variable [Facts₀]

abbrev win0_0 : Pipeline.Window sig grid0 :=
  Pipeline.Window.ofSpec (Memref.whole main_v0) S1x224x224x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8x8x10.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x224x224x8x8 : Shape := ⟨5, ![8, 224, 224, 8, 8]⟩
abbrev S_ : Shape := ⟨0, ![]⟩
abbrev S8x8x8 : Shape := ⟨3, ![8, 8, 8]⟩
abbrev S8x223x223x8x8 : Shape := ⟨5, ![8, 223, 223, 8, 8]⟩
abbrev S8x222x222x8x8 : Shape := ⟨5, ![8, 222, 222, 8, 8]⟩
abbrev S8x221x221x8x8 : Shape := ⟨5, ![8, 221, 221, 8, 8]⟩
abbrev S8x220x220x8x8 : Shape := ⟨5, ![8, 220, 220, 8, 8]⟩
abbrev S8x219x219x8x8 : Shape := ⟨5, ![8, 219, 219, 8, 8]⟩
abbrev S8x218x218x8x8 : Shape := ⟨5, ![8, 218, 218, 8, 8]⟩
abbrev S8x217x217x8x8 : Shape := ⟨5, ![8, 217, 217, 8, 8]⟩
abbrev S8x216x216x8x8 : Shape := ⟨5, ![8, 216, 216, 8, 8]⟩
abbrev S8x215x215x8x8 : Shape := ⟨5, ![8, 215, 215, 8, 8]⟩
abbrev S8x8x8x1 : Shape := ⟨4, ![8, 8, 8, 1]⟩
abbrev S8x8x8x10 : Shape := ⟨4, ![8, 8, 8, 10]⟩

abbrev nBuf : Space → Nat
  | .hbm => 68
  | .vmem => 0
  | .smem => 0
  | _ => 0

abbrev bufTy : (tb : Table) → Fin (tcTables nBuf tb) → BufTy
  | .hbm, ⟨0, _⟩ => ⟨S8x224x224x8x8, .f32⟩
  | .hbm, ⟨1, _⟩ => ⟨S_, .f32⟩
  | .hbm, ⟨2, _⟩ => ⟨S_, .f32⟩
  | .hbm, ⟨3, _⟩ => ⟨S8x224x224x8x8, .f32⟩
  | .hbm, ⟨4, _⟩ => ⟨S_, .f32⟩
  | .hbm, ⟨5, _⟩ => ⟨S8x8x8, .f32⟩
  | .hbm, ⟨6, _⟩ => ⟨S_, .f32⟩
  | .hbm, ⟨7, _⟩ => ⟨S_, .f32⟩
  | .hbm, ⟨8, _⟩ => ⟨S8x223x223x8x8, .f32⟩
  | .hbm, ⟨9, _⟩ => ⟨S_, .f32⟩
  | .hbm, ⟨10, _⟩ => ⟨S8x8x8, .f32⟩
  | .hbm, ⟨11, _⟩ => ⟨S_, .f32⟩
  | .hbm, ⟨12, _⟩ => ⟨S_, .f32⟩
  | .hbm, ⟨13, _⟩ => ⟨S8x222x222x8x8, .f32⟩
  | .hbm, ⟨14, _⟩ => ⟨S_, .f32⟩
  | .hbm, ⟨15, _⟩ => ⟨S8x8x8, .f32⟩
  | .hbm, ⟨16, _⟩ => ⟨S_, .f32⟩
  | .hbm, ⟨17, _⟩ => ⟨S_, .f32⟩
  | .hbm, ⟨18, _⟩ => ⟨S8x221x221x8x8, .f32⟩
  | .hbm, ⟨19, _⟩ => ⟨S_, .f32⟩
  | .hbm, ⟨20, _⟩ => ⟨S8x8x8, .f32⟩
  | .hbm, ⟨21, _⟩ => ⟨S_, .f32⟩
  | .hbm, ⟨22, _⟩ => ⟨S_, .f32⟩
  | .hbm, ⟨23, _⟩ => ⟨S8x220x220x8x8, .f32⟩
  | .hbm, ⟨24, _⟩ => ⟨S_, .f32⟩
  | .hbm, ⟨25, _⟩ => ⟨S8x8x8, .f32⟩
  | .hbm, ⟨26, _⟩ => ⟨S_, .f32⟩
  | .hbm, ⟨27, _⟩ => ⟨S_, .f32⟩
  | .hbm, ⟨28, _⟩ => ⟨S8x219x219x8x8, .f32⟩
  | .hbm, ⟨29, _⟩ => ⟨S_, .f32⟩
  | .hbm, ⟨30, _⟩ => ⟨S8x8x8, .f32⟩
  | .hbm, ⟨31, _⟩ => ⟨S_, .f32⟩
  | .hbm, ⟨32, _⟩ => ⟨S_, .f32⟩
  | .hbm, ⟨33, _⟩ => ⟨S8x218x218x8x8, .f32⟩
  | .hbm, ⟨34, _⟩ => ⟨S_, .f32⟩
  | .hbm, ⟨35, _⟩ => ⟨S8x8x8, .f32⟩
  | .hbm, ⟨36, _⟩ => ⟨S_, .f32⟩
  | .hbm, ⟨37, _⟩ => ⟨S_, .f32⟩
  | .hbm, ⟨38, _⟩ => ⟨S8x217x217x8x8, .f32⟩
  | .hbm, ⟨39, _⟩ => ⟨S_, .f32⟩
  | .hbm, ⟨40, _⟩ => ⟨S8x8x8, .f32⟩
  | .hbm, ⟨41, _⟩ => ⟨S_, .f32⟩
  | .hbm, ⟨42, _⟩ => ⟨S_, .f32⟩
  | .hbm, ⟨43, _⟩ => ⟨S8x216x216x8x8, .f32⟩
  | .hbm, ⟨44, _⟩ => ⟨S_, .f32⟩
  | .hbm, ⟨45, _⟩ => ⟨S8x8x8, .f32⟩
  | .hbm, ⟨46, _⟩ => ⟨S_, .f32⟩
  | .hbm, ⟨47, _⟩ => ⟨S_, .f32⟩
  | .hbm, ⟨48, _⟩ => ⟨S8x215x215x8x8, .f32⟩
  | .hbm, ⟨49, _⟩ => ⟨S_, .f32⟩
  | .hbm, ⟨50, _⟩ => ⟨S8x8x8, .f32⟩
  | .hbm, ⟨51, _⟩ => ⟨S8x8x8x1, .f32⟩
  | .hbm, ⟨52, _⟩ => ⟨S8x8x8x1, .f32⟩
  | .hbm, ⟨53, _⟩ => ⟨S8x8x8x1, .f32⟩
  | .hbm, ⟨54, _⟩ => ⟨S8x8x8x1, .f32⟩
  | .hbm, ⟨55, _⟩ => ⟨S8x8x8x1, .f32⟩
  | .hbm, ⟨56, _⟩ => ⟨S8x8x8x1, .f32⟩
  | .hbm, ⟨57, _⟩ => ⟨S8x8x8x1, .f32⟩
  | .hbm, ⟨58, _⟩ => ⟨S8x8x8x1, .f32⟩
  | .hbm, ⟨59, _⟩ => ⟨S8x8x8x1, .f32⟩
  | .hbm, ⟨60, _⟩ => ⟨S8x8x8x1, .f32⟩
  | .hbm, ⟨61, _⟩ => ⟨S8x8x8x10, .f32⟩
  | .hbm, ⟨62, _⟩ => ⟨S_, .f32⟩
  | .hbm, ⟨63, _⟩ => ⟨S8x8x8x10, .f32⟩
  | .hbm, ⟨64, _⟩ => ⟨S8x8x8x10, .f32⟩
  | .hbm, ⟨65, _⟩ => ⟨S_, .f32⟩
  | .hbm, ⟨66, _⟩ => ⟨S8x8x8x10, .f32⟩
  | .hbm, ⟨67, _⟩ => ⟨S8x8x8x10, .f32⟩
  | _, _ => ⟨S8x224x224x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_cst_5 : Ref sig .tc := ⟨.hbm, 16, rfl⟩
abbrev main_v9 : Ref sig .tc := ⟨.hbm, 17, rfl⟩
abbrev main_v10 : Ref sig .tc := ⟨.hbm, 18, rfl⟩
abbrev main_cst_6 : Ref sig .tc := ⟨.hbm, 19, rfl⟩
abbrev main_v11 : Ref sig .tc := ⟨.hbm, 20, rfl⟩
abbrev main_cst_7 : Ref sig .tc := ⟨.hbm, 21, rfl⟩
abbrev main_v12 : Ref sig .tc := ⟨.hbm, 22, rfl⟩
abbrev main_v13 : Ref sig .tc := ⟨.hbm, 23, rfl⟩
abbrev main_cst_8 : Ref sig .tc := ⟨.hbm, 24, rfl⟩
abbrev main_v14 : Ref sig .tc := ⟨.hbm, 25, rfl⟩
abbrev main_cst_9 : Ref sig .tc := ⟨.hbm, 26, rfl⟩
abbrev main_v15 : Ref sig .tc := ⟨.hbm, 27, rfl⟩
abbrev main_v16 : Ref sig .tc := ⟨.hbm, 28, rfl⟩
abbrev main_cst_10 : Ref sig .tc := ⟨.hbm, 29, rfl⟩
abbrev main_v17 : Ref sig .tc := ⟨.hbm, 30, rfl⟩
abbrev main_cst_11 : Ref sig .tc := ⟨.hbm, 31, rfl⟩
abbrev main_v18 : Ref sig .tc := ⟨.hbm, 32, rfl⟩
abbrev main_v19 : Ref sig .tc := ⟨.hbm, 33, rfl⟩
abbrev main_cst_12 : Ref sig .tc := ⟨.hbm, 34, rfl⟩
abbrev main_v20 : Ref sig .tc := ⟨.hbm, 35, rfl⟩
abbrev main_cst_13 : Ref sig .tc := ⟨.hbm, 36, rfl⟩
abbrev main_v21 : Ref sig .tc := ⟨.hbm, 37, rfl⟩
abbrev main_v22 : Ref sig .tc := ⟨.hbm, 38, rfl⟩
abbrev main_cst_14 : Ref sig .tc := ⟨.hbm, 39, rfl⟩
abbrev main_v23 : Ref sig .tc := ⟨.hbm, 40, rfl⟩
abbrev main_cst_15 : Ref sig .tc := ⟨.hbm, 41, rfl⟩
abbrev main_v24 : Ref sig .tc := ⟨.hbm, 42, rfl⟩
abbrev main_v25 : Ref sig .tc := ⟨.hbm, 43, rfl⟩
abbrev main_cst_16 : Ref sig .tc := ⟨.hbm, 44, rfl⟩
abbrev main_v26 : Ref sig .tc := ⟨.hbm, 45, rfl⟩
abbrev main_cst_17 : Ref sig .tc := ⟨.hbm, 46, rfl⟩
abbrev main_v27 : Ref sig .tc := ⟨.hbm, 47, rfl⟩
abbrev main_v28 : Ref sig .tc := ⟨.hbm, 48, rfl⟩
abbrev main_cst_18 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call0_cst : Ref sig .tc := ⟨.hbm, 62, rfl⟩
abbrev main_call0_v0 : Ref sig .tc := ⟨.hbm, 63, rfl⟩
abbrev main_v41 : Ref sig .tc := ⟨.hbm, 64, rfl⟩
abbrev main_cst_19 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S8x224x224x8x8_S8x224x224x8x8_w1s1p0_0_w1s1p0_0_w1s1p0_0_w1s1p0_0_w1s1p0_0 : S8x224x224x8x8.ReduceWindows (![1, 1, 1, 1, 1] : Fin 5 → Nat) ![1, 1, 1, 1, 1] ![0, 0, 0, 0, 0] ![0, 0, 0, 0, 0] S8x224x224x8x8
  h_S_ : 0 < S_.numel
  reducesTo_S8x224x224x8x8_S8x8x8_d1_2 : S8x224x224x8x8.ReducesTo [1, 2] S8x8x8
  reduceWindows_S8x224x224x8x8_S8x223x223x8x8_w1s1p0_0_w2s1p0_0_w2s1p0_0_w1s1p0_0_w1s1p0_0 : S8x224x224x8x8.ReduceWindows (![1, 2, 2, 1, 1] : Fin 5 → Nat) ![1, 1, 1, 1, 1] ![0, 0, 0, 0, 0] ![0, 0, 0, 0, 0] S8x223x223x8x8
  reducesTo_S8x223x223x8x8_S8x8x8_d1_2 : S8x223x223x8x8.ReducesTo [1, 2] S8x8x8
  reduceWindows_S8x224x224x8x8_S8x222x222x8x8_w1s1p0_0_w3s1p0_0_w3s1p0_0_w1s1p0_0_w1s1p0_0 : S8x224x224x8x8.ReduceWindows (![1, 3, 3, 1, 1] : Fin 5 → Nat) ![1, 1, 1, 1, 1] ![0, 0, 0, 0, 0] ![0, 0, 0, 0, 0] S8x222x222x8x8
  reducesTo_S8x222x222x8x8_S8x8x8_d1_2 : S8x222x222x8x8.ReducesTo [1, 2] S8x8x8
  reduceWindows_S8x224x224x8x8_S8x221x221x8x8_w1s1p0_0_w4s1p0_0_w4s1p0_0_w1s1p0_0_w1s1p0_0 : S8x224x224x8x8.ReduceWindows (![1, 4, 4, 1, 1] : Fin 5 → Nat) ![1, 1, 1, 1, 1] ![0, 0, 0, 0, 0] ![0, 0, 0, 0, 0] S8x221x221x8x8
  reducesTo_S8x221x221x8x8_S8x8x8_d1_2 : S8x221x221x8x8.ReducesTo [1, 2] S8x8x8
  reduceWindows_S8x224x224x8x8_S8x220x220x8x8_w1s1p0_0_w5s1p0_0_w5s1p0_0_w1s1p0_0_w1s1p0_0 : S8x224x224x8x8.ReduceWindows (![1, 5, 5, 1, 1] : Fin 5 → Nat) ![1, 1, 1, 1, 1] ![0, 0, 0, 0, 0] ![0, 0, 0, 0, 0] S8x220x220x8x8
  reducesTo_S8x220x220x8x8_S8x8x8_d1_2 : S8x220x220x8x8.ReducesTo [1, 2] S8x8x8
  reduceWindows_S8x224x224x8x8_S8x219x219x8x8_w1s1p0_0_w6s1p0_0_w6s1p0_0_w1s1p0_0_w1s1p0_0 : S8x224x224x8x8.ReduceWindows (![1, 6, 6, 1, 1] : Fin 5 → Nat) ![1, 1, 1, 1, 1] ![0, 0, 0, 0, 0] ![0, 0, 0, 0, 0] S8x219x219x8x8
  reducesTo_S8x219x219x8x8_S8x8x8_d1_2 : S8x219x219x8x8.ReducesTo [1, 2] S8x8x8
  reduceWindows_S8x224x224x8x8_S8x218x218x8x8_w1s1p0_0_w7s1p0_0_w7s1p0_0_w1s1p0_0_w1s1p0_0 : S8x224x224x8x8.ReduceWindows (![1, 7, 7, 1, 1] : Fin 5 → Nat) ![1, 1, 1, 1, 1] ![0, 0, 0, 0, 0] ![0, 0, 0, 0, 0] S8x218x218x8x8
  reducesTo_S8x218x218x8x8_S8x8x8_d1_2 : S8x218x218x8x8.ReducesTo [1, 2] S8x8x8
  reduceWindows_S8x224x224x8x8_S8x217x217x8x8_w1s1p0_0_w8s1p0_0_w8s1p0_0_w1s1p0_0_w1s1p0_0 : S8x224x224x8x8.ReduceWindows (![1, 8, 8, 1, 1] : Fin 5 → Nat) ![1, 1, 1, 1, 1] ![0, 0, 0, 0, 0] ![0, 0, 0, 0, 0] S8x217x217x8x8
  reducesTo_S8x217x217x8x8_S8x8x8_d1_2 : S8x217x217x8x8.ReducesTo [1, 2] S8x8x8
  reduceWindows_S8x224x224x8x8_S8x216x216x8x8_w1s1p0_0_w9s1p0_0_w9s1p0_0_w1s1p0_0_w1s1p0_0 : S8x224x224x8x8.ReduceWindows (![1, 9, 9, 1, 1] : Fin 5 → Nat) ![1, 1, 1, 1, 1] ![0, 0, 0, 0, 0] ![0, 0, 0, 0, 0] S8x216x216x8x8
  reducesTo_S8x216x216x8x8_S8x8x8_d1_2 : S8x216x216x8x8.ReducesTo [1, 2] S8x8x8
  reduceWindows_S8x224x224x8x8_S8x215x215x8x8_w1s1p0_0_w10s1p0_0_w10s1p0_0_w1s1p0_0_w1s1p0_0 : S8x224x224x8x8.ReduceWindows (![1, 10, 10, 1, 1] : Fin 5 → Nat) ![1, 1, 1, 1, 1] ![0, 0, 0, 0, 0] ![0, 0, 0, 0, 0] S8x215x215x8x8
  reducesTo_S8x215x215x8x8_S8x8x8_d1_2 : S8x215x215x8x8.ReducesTo [1, 2] S8x8x8
  bcast_S8x8x8_S8x8x8x1_0_1_2 : S8x8x8.BroadcastsInDim S8x8x8x1 (![0, 1, 2] : Fin 3 → Fin S8x8x8x1.rank)
  concatenates_S8x8x8x1_S8x8x8x1_S8x8x8x1_S8x8x8x1_S8x8x8x1_S8x8x8x1_S8x8x8x1_S8x8x8x1_S8x8x8x1_S8x8x8x1_S8x8x8x10_d3 : Shape.Concatenates [S8x8x8x1, S8x8x8x1, S8x8x8x1, S8x8x8x1, S8x8x8x1, S8x8x8x1, S8x8x8x1, S8x8x8x1, S8x8x8x1, S8x8x8x1] S8x8x8x10 3
  bcast_S_S8x8x8x10 : S_.BroadcastsInDim S8x8x8x10 (![] : Fin 0 → Fin S8x8x8x10.rank)

variable [Facts₀]

class Facts : Prop extends Facts₀ where

variable [Facts]
-- ==== Proof.LibBoxMax.lean ====
/-
  Sliding maxima on the extended reals.  A plane is a function `ℕ → ℕ → EReal`.  `boxMax X s h w` is the
  largest entry of the `s × s` square of `X` whose top-left corner is `(h, w)`, and `glide X s N` is the sum of
  these maxima over the `N × N` corners.  A maximum is known by what bounds it: `boxMax X s h w ≤ c` exactly when
  every entry of the square is `≤ c` (`boxMax_le_iff`), and a left fold of `max` over a list is below `c` exactly
  when its start and every term are (`foldl_max_le_iff`); two quantities with the same upper bounds are equal.
  The square's maximum can be taken row by row (`boxMax_rows`): first the running maximum along each row
  (`rowMax`), then the maximum of these down the rows, which is how a separable pooling computes it.
-/
import Mathlib

noncomputable section

namespace Cert.BoxMax

open Finset

/-- A left fold of `max` over a list is at most `c` iff its start and each of its terms are. -/
theorem foldl_max_le_iff {ι : Type*} (g : ι → EReal) (l : List ι) (v c : EReal) :
    l.foldl (fun r n => max r (g n)) v ≤ c ↔ v ≤ c ∧ ∀ n ∈ l, g n ≤ c := by
  induction l generalizing v with
  | nil => simp
  | cons a l ih =>
    rw [List.foldl_cons, ih]
    simp only [max_le_iff, List.mem_cons, forall_eq_or_imp, and_assoc]

/-- A supremum over the first `n + 1` naturals is that over the first `n`, joined with the last term. -/
theorem sup_range_succ (f : ℕ → EReal) (n : ℕ) : (range (n + 1)).sup f = max ((range n).sup f) (f n) := by
  rw [Finset.range_add_one, Finset.sup_insert, sup_comm]

/-- The largest of the `s` entries of row `h` starting at column `w`. -/
def rowMax (X : ℕ → ℕ → EReal) (s h w : ℕ) : EReal := (range s).sup fun j => X h (w + j)

/-- The largest entry of the `s × s` square with corner `(h, w)`. -/
def boxMax (X : ℕ → ℕ → EReal) (s h w : ℕ) : EReal :=
  (range s).sup fun i => (range s).sup fun j => X (h + i) (w + j)

theorem boxMax_le_iff (X : ℕ → ℕ → EReal) (s h w : ℕ) (c : EReal) :
    boxMax X s h w ≤ c ↔ ∀ i < s, ∀ j < s, X (h + i) (w + j) ≤ c := by
  simp only [boxMax, Finset.sup_le_iff, Finset.mem_range]

/-- The square's maximum is the maximum down the rows of the rows' maxima. -/
theorem boxMax_rows (X : ℕ → ℕ → EReal) (s h w : ℕ) :
    boxMax X s h w = (range s).sup fun i => rowMax X s (h + i) w := rfl

/-- One more column: the running maximum of a row. -/
theorem rowMax_succ (X : ℕ → ℕ → EReal) (s h w : ℕ) :
    rowMax X (s + 1) h w = max (rowMax X s h w) (X h (w + s)) := by
  unfold rowMax; exact sup_range_succ _ s

theorem rowMax_one (X : ℕ → ℕ → EReal) (h w : ℕ) : rowMax X 1 h w = X h w := by
  simp [rowMax]

/-- The sum over the `N × N` corners of the squares' maxima, columns outermost. -/
def glide (X : ℕ → ℕ → EReal) (s N : ℕ) : EReal :=
  ∑ w ∈ range N, ∑ h ∈ range N, boxMax X s h w

/-- The same sum with the rows outermost. -/
theorem glide_comm (X : ℕ → ℕ → EReal) (s N : ℕ) :
    glide X s N = ∑ h ∈ range N, ∑ w ∈ range N, boxMax X s h w := Finset.sum_comm

end Cert.BoxMax

end
-- ==== Proof.LibRead.lean ====
/-
  Arrays read at natural-number coordinates.  `rd3 v h w k`, `rd4`, `rd5` are the entry of a rank-3, -4, -5
  array of extended reals at the given coordinates, and `⊥` when a coordinate is out of range; on such readings
  a slice is a shift of the coordinates (`rd3_slice`), an entrywise maximum is the maximum of the readings
  (`rd3_max`), dropping a leading unit axis changes nothing (`rd3_shapeCast_drop`) and merging the two trailing
  axes `[D, C]` into one of length `D·C` reads entry `d·C + c` where the unmerged array has `(d, c)`
  (`rd4_shapeCast_merge`).  Sums: the float sum of an `[a, b, c]` array along its first axis and then of the
  `[b, c]` result along its first axis, viewed as a `[c, 1]` column, is at row `k` the double sum over `w` and
  `h` of the readings `(h, w, k)` (`sum_sum_column`).
-/
import Idealize.ShloMosaic.Lib.Pipeline.Value
import Idealize.ShloMosaic.Lib.ValueIdx
import Idealize.ShloMosaic.PureOps.Ideal.Laws

noncomputable section

namespace Cert.Read

open Idealize.ShloMosaic Idealize.ShloMosaic.ValueIdx Finset

variable {a b c : ℕ}

/-- Entry `(h, w, k)` of a rank-3 array, `⊥` outside it. -/
def rd3 (v : (⟨3, ![a, b, c]⟩ : Shape).Idx → EReal) (h w k : ℕ) : EReal :=
  if hh : h < a ∧ w < b ∧ k < c then v (ix3 ⟨h, hh.1⟩ ⟨w, hh.2.1⟩ ⟨k, hh.2.2⟩) else ⊥

theorem rd3_of_lt (v : (⟨3, ![a, b, c]⟩ : Shape).Idx → EReal) {h w k : ℕ} (hh : h < a) (hw : w < b) (hk : k < c) :
    rd3 v h w k = v (ix3 ⟨h, hh⟩ ⟨w, hw⟩ ⟨k, hk⟩) := dif_pos ⟨hh, hw, hk⟩

theorem rd3_ix3 (v : (⟨3, ![a, b, c]⟩ : Shape).Idx → EReal) (h : Fin a) (w : Fin b) (k : Fin c) :
    rd3 v h.val w.val k.val = v (ix3 h w k) := dif_pos ⟨h.isLt, w.isLt, k.isLt⟩

/-- An entrywise maximum read at coordinates. -/
theorem rd3_max (u v : FVec Ideal ⟨3, ![a, b, c]⟩ .f32) (h w k : ℕ) :
    rd3 (maximumf u v) h w k = max (rd3 u h w k) (rd3 v h w k) := by
  unfold rd3
  split_ifs with hh
  · rfl
  · exact (max_self _).symm

/-- A slice read at coordinates inside it is the array read at the shifted coordinates. -/
theorem rd3_slice {a' b' c' o0 o1 o2 : ℕ} (v : (⟨3, ![a, b, c]⟩ : Shape).Idx → EReal)
    (hs : Shape.Slices (s := ⟨3, ![a, b, c]⟩) ![o0, o1, o2] ⟨3, ![a', b', c']⟩) {h w k : ℕ}
    (hh : h < a') (hw : w < b') (hk : k < c') :
    rd3 (extractStridedSlice ⟨3, ![a', b', c']⟩ ![o0, o1, o2] v hs) h w k = rd3 v (h + o0) (w + o1) (k + o2) := by
  have b0 : o0 + a' ≤ a := hs.2 0
  have b1 : o1 + b' ≤ b := hs.2 1
  have b2 : o2 + c' ≤ c := hs.2 2
  rw [rd3_of_lt _ hh hw hk, rd3_of_lt v (by omega : h + o0 < a) (by omega : w + o1 < b) (by omega : k + o2 < c)]
  refine extractStridedSlice_apply _ v hs _ _ fun ax => ?_
  match ax with
  | ⟨0, _⟩ => show h + o0 = o0 + h; omega
  | ⟨1, _⟩ => show w + o1 = o1 + w; omega
  | ⟨2, _⟩ => show k + o2 = o2 + k; omega

/-- Entry `(p, h, w, k)` of a rank-4 array, `⊥` outside it. -/
def rd4 {n : ℕ} (v : (⟨4, ![n, a, b, c]⟩ : Shape).Idx → EReal) (p h w k : ℕ) : EReal :=
  if hh : p < n ∧ h < a ∧ w < b ∧ k < c then v (ix4 ⟨p, hh.1⟩ ⟨h, hh.2.1⟩ ⟨w, hh.2.2.1⟩ ⟨k, hh.2.2.2⟩) else ⊥

theorem rd4_of_lt {n : ℕ} (v : (⟨4, ![n, a, b, c]⟩ : Shape).Idx → EReal) {p h w k : ℕ} (hp : p < n) (hh : h < a)
    (hw : w < b) (hk : k < c) : rd4 v p h w k = v (ix4 ⟨p, hp⟩ ⟨h, hh⟩ ⟨w, hw⟩ ⟨k, hk⟩) := dif_pos ⟨hp, hh, hw, hk⟩

/-- Entry `(p, h, w, d, e)` of a rank-5 array, `⊥` outside it. -/
def rd5 {n D E : ℕ} (v : (⟨5, ![n, a, b, D, E]⟩ : Shape).Idx → EReal) (p h w d e : ℕ) : EReal :=
  if hh : p < n ∧ h < a ∧ w < b ∧ d < D ∧ e < E then
    v (ix5 ⟨p, hh.1⟩ ⟨h, hh.2.1⟩ ⟨w, hh.2.2.1⟩ ⟨d, hh.2.2.2.1⟩ ⟨e, hh.2.2.2.2⟩) else ⊥

theorem rd5_of_lt {n D E : ℕ} (v : (⟨5, ![n, a, b, D, E]⟩ : Shape).Idx → EReal) {p h w d e : ℕ} (hp : p < n)
    (hh : h < a) (hw : w < b) (hd : d < D) (he : e < E) :
    rd5 v p h w d e = v (ix5 ⟨p, hp⟩ ⟨h, hh⟩ ⟨w, hw⟩ ⟨d, hd⟩ ⟨e, he⟩) := dif_pos ⟨hp, hh, hw, hd, he⟩

/-- Dropping the leading unit axis of a `[1, a, b, c]` array changes no reading. -/
theorem rd3_shapeCast_drop (P : (⟨4, ![1, a, b, c]⟩ : Shape).Idx → EReal)
    (hc : (⟨4, ![1, a, b, c]⟩ : Shape).ShapeCasts ⟨3, ![a, b, c]⟩) (h w k : ℕ) :
    rd3 (shapeCast ⟨3, ![a, b, c]⟩ P hc) h w k = rd4 P 0 h w k := by
  by_cases hh : h < a ∧ w < b ∧ k < c
  · rw [rd3_of_lt _ hh.1 hh.2.1 hh.2.2, rd4_of_lt P Nat.one_pos hh.1 hh.2.1 hh.2.2]
    refine shapeCast_apply P hc _ _ ?_
    rw [Shape.rowMajor_val_four, Shape.rowMajor_val_three]
    show ((0 * a + h) * b + w) * c + k = (h * b + w) * c + k
    rw [Nat.zero_mul, Nat.zero_add]
  · unfold rd3 rd4
    rw [dif_neg hh, dif_neg fun H => hh ⟨H.2.1, H.2.2.1, H.2.2.2⟩]

/-- Merging the trailing axes `[D, E]` into one of length `K = D·E`: entry `d·E + e` of the merged array is
    entry `(d, e)` of the original. -/
theorem rd4_shapeCast_merge {n D E K : ℕ} (x : (⟨5, ![n, a, b, D, E]⟩ : Shape).Idx → EReal)
    (hc : (⟨5, ![n, a, b, D, E]⟩ : Shape).ShapeCasts ⟨4, ![n, a, b, K]⟩) (hK : K = D * E) (p h w : ℕ) {d e : ℕ}
    (hd : d < D) (he : e < E) :
    rd4 (shapeCast ⟨4, ![n, a, b, K]⟩ x hc) p h w (d * E + e) = rd5 x p h w d e := by
  have hk : d * E + e < K := by
    rw [hK]; calc d * E + e < d * E + E := by omega
      _ = (d + 1) * E := by ring
      _ ≤ D * E := Nat.mul_le_mul_right E hd
  by_cases hh : p < n ∧ h < a ∧ w < b
  · rw [rd4_of_lt _ hh.1 hh.2.1 hh.2.2 hk, rd5_of_lt x hh.1 hh.2.1 hh.2.2 hd he]
    refine shapeCast_apply x hc _ _ ?_
    rw [Shape.rowMajor_val_five, Shape.rowMajor_val_four]
    show (((p * a + h) * b + w) * D + d) * E + e = ((p * a + h) * b + w) * K + (d * E + e)
    rw [hK]; ring
  · unfold rd4 rd5
    rw [dif_neg fun H => hh ⟨H.1, H.2.1, H.2.2.1⟩, dif_neg fun H => hh ⟨H.1, H.2.1, H.2.2.1⟩]

/-- A float sum of an `[a, b, c]` array along its first axis, from the zero word, at `(w, k)`. -/
theorem sum_first_apply (src : FVec Ideal ⟨3, ![a, b, c]⟩ .f32)
    (h : Shape.Reduces ⟨3, ![a, b, c]⟩ [0] ⟨2, ![b, c]⟩) (hφ : FKind.Formats .f32)
    (hacc : (0x00000000#32 : BitVec (FTy.bits .f32)) = FKind.add.neutral .f32 hφ) (w : Fin b) (k : Fin c) :
    multiReduction .add [0] ⟨2, ![b, c]⟩ src 0x00000000#32 h hφ hacc (ix2 w k) = ∑ p : Fin a, src (ix3 p w k) := by
  refine (Ideal.multiReduction_add_single src _ h hφ hacc (ix2 w k)).trans ?_
  show ∑ p : Fin a, src (h.lift (ix2 w k) p) = _
  exact Finset.sum_congr rfl fun p _ => congrArg src
    (funext fun ax => Fin.ext (by match ax with | ⟨0, _⟩ => rfl | ⟨1, _⟩ => rfl | ⟨2, _⟩ => rfl))

/-- A float sum of a `[b, c]` matrix along its rows, from the zero word, at column `k`. -/
theorem sum_rows_apply (src : FVec Ideal ⟨2, ![b, c]⟩ .f32)
    (h : Shape.Reduces ⟨2, ![b, c]⟩ [0] ⟨1, ![c]⟩) (hφ : FKind.Formats .f32)
    (hacc : (0x00000000#32 : BitVec (FTy.bits .f32)) = FKind.add.neutral .f32 hφ) (k : Fin c) :
    multiReduction .add [0] ⟨1, ![c]⟩ src 0x00000000#32 h hφ hacc (ix1 k) = ∑ w : Fin b, src (ix2 w k) := by
  refine (Ideal.multiReduction_add_single src _ h hφ hacc (ix1 k)).trans ?_
  show ∑ w : Fin b, src (h.lift (ix1 k) w) = _
  exact Finset.sum_congr rfl fun w _ => congrArg src
    (funext fun ax => Fin.ext (by match ax with | ⟨0, _⟩ => rfl | ⟨1, _⟩ => rfl))

/-- Summing an `[a, b, c]` array over its first axis, the `[b, c]` result over its first axis, and viewing the
    `[c]` result as a `[c, 1]` column: row `k` holds the double sum of the readings `(h, w, k)`. -/
theorem sum_sum_column (V : FVec Ideal ⟨3, ![a, b, c]⟩ .f32)
    (h1 : Shape.Reduces ⟨3, ![a, b, c]⟩ [0] ⟨2, ![b, c]⟩) (h2 : Shape.Reduces ⟨2, ![b, c]⟩ [0] ⟨1, ![c]⟩)
    (hc : (⟨1, ![c]⟩ : Shape).ShapeCasts ⟨2, ![c, 1]⟩) (p1 p2 : FKind.Formats .f32)
    (q1 : (0x00000000#32 : BitVec (FTy.bits .f32)) = FKind.add.neutral .f32 p1)
    (q2 : (0x00000000#32 : BitVec (FTy.bits .f32)) = FKind.add.neutral .f32 p2)
    (j : (⟨2, ![c, 1]⟩ : Shape).Idx) :
    shapeCast ⟨2, ![c, 1]⟩ (multiReduction .add [0] ⟨1, ![c]⟩
        (multiReduction .add [0] ⟨2, ![b, c]⟩ V 0x00000000#32 h1 p1 q1) 0x00000000#32 h2 p2 q2) hc j
      = ∑ w ∈ range b, ∑ h ∈ range a, rd3 V h w (j 0).val := by
  have hk : (j 0).val < c := (j 0).isLt
  have hu : (j 1).val < 1 := (j 1).isLt
  refine (shapeCast_apply _ hc j (ix1 ⟨(j 0).val, hk⟩) ?_).trans ?_
  · rw [Shape.rowMajor_val_one, Shape.rowMajor_val_two]
    show (j 0).val = (j 0).val * 1 + (j 1).val
    omega
  refine (sum_rows_apply _ h2 p2 q2 ⟨(j 0).val, hk⟩).trans ?_
  rw [← Fin.sum_univ_eq_sum_range (fun w => ∑ h ∈ range a, rd3 V h w (j 0).val) b]
  refine Finset.sum_congr rfl fun w _ => ?_
  refine (sum_first_apply V h1 p1 q1 w ⟨(j 0).val, hk⟩).trans ?_
  rw [← Fin.sum_univ_eq_sum_range (fun h => rd3 V h w.val (j 0).val) a]
  exact Finset.sum_congr rfl fun p _ => (rd3_ix3 V p w ⟨(j 0).val, hk⟩).symm

end Cert.Read

end
-- ==== Proof.Spec.lean ====
/-
  What both programs compute.  The input is an array `x` of shape `[8, 224, 224, 8, 8]`.  For a batch entry `b`
  and a channel pair `(d, e)` take the `224 × 224` plane `(h, w) ↦ x (b, h, w, d, e)`; for each window size
  `s = 1, …, 10` slide an `s × s` square over the plane (all `(225 - s)²` positions), take the largest entry under
  the square at each position and add these maxima up.  The result at `(b, d, e, s - 1)` is that sum, clamped below
  at zero, plus one.
-/
import proofs.«104380_j50319836839992_1_alg».proof.Proof.LibBoxMax
import proofs.«104380_j50319836839992_1_alg».proof.Proof.LibRead

noncomputable section

namespace Cert.Glide

open Idealize.ShloMosaic Cert.Read Cert.BoxMax

/-- The sum of sliding-window maxima, clamped at zero, plus one; entry `(b, d, e, n)` uses windows of size `n + 1`. -/
def G (x : (⟨5, ![8, 224, 224, 8, 8]⟩ : Shape).Idx → EReal) : (⟨4, ![8, 8, 8, 10]⟩ : Shape).Idx → EReal := fun i =>
  max (glide (fun h w => rd5 x (i 0).val h w (i 1).val (i 2).val) ((i 3).val + 1) (224 - (i 3).val))
      (Ideal.ofBits .f32 0x00000000#32)
    + Ideal.ofBits .f32 0x3F800000#32

/-- The same over the array with its two trailing axes merged into one of length 64 (the kernel's operand):
    channel pair `(d, e)` sits at `d·8 + e`. -/
def G4 (A : (⟨4, ![8, 224, 224, 64]⟩ : Shape).Idx → EReal) : (⟨4, ![8, 8, 8, 10]⟩ : Shape).Idx → EReal := fun i =>
  max (glide (fun h w => rd4 A (i 0).val h w ((i 1).val * 8 + (i 2).val)) ((i 3).val + 1) (224 - (i 3).val))
      (Ideal.ofBits .f32 0x00000000#32)
    + Ideal.ofBits .f32 0x3F800000#32

/-- Merging the trailing axes first and reading the merged array is the same function of `x`. -/
theorem G4_shapeCast (x : (⟨5, ![8, 224, 224, 8, 8]⟩ : Shape).Idx → EReal)
    (hc : (⟨5, ![8, 224, 224, 8, 8]⟩ : Shape).ShapeCasts ⟨4, ![8, 224, 224, 64]⟩) :
    G4 (shapeCast ⟨4, ![8, 224, 224, 64]⟩ x hc) = G x := by
  funext i
  have h1 : (i 1).val < 8 := (i 1).isLt
  have h2 : (i 2).val < 8 := (i 2).isLt
  unfold G4 G
  have hP : (fun h w => rd4 (shapeCast ⟨4, ![8, 224, 224, 64]⟩ x hc) (i 0).val h w ((i 1).val * 8 + (i 2).val))
      = fun h w => rd5 x (i 0).val h w (i 1).val (i 2).val :=
    funext fun h => funext fun w => rd4_shapeCast_merge x hc (by norm_num) (i 0).val h w h1 h2
  rw [hP]

end Cert.Glide

end
-- ==== Proof.KernelScales.lean ====
/-
  The kernel's ten partial results.  The body holds one batch entry's `[224, 224, 64]` slab `x` (the loaded block
  with its unit axis dropped) and computes, for each window size `s = 1, …, 10`: the running maximum along the second
  axis, `m₁ = max (m₁ shifted, x shifted by s - 1)` — so `m₁ (h, w, k)` is the largest of `x (h, w + j, k)`,
  `j < s` —, then the maximum of `s` row-shifted copies of `m₁` — the largest entry of the `s × s` square at
  `(h, w)` —, then the sum of that over the first axis, then over the second, as a `[64, 1]` column.  Reading each
  term at coordinates turns every slice into a shift and every entrywise maximum into a `max`, which leaves the
  nested maximum of the square's `s²` entries in the order the body takes them: row by row, left to right.  That is
  the square's maximum written out, so operand `s - 1` of the concatenation is, at row `k`, the sum over the
  `(225 - s)²` corners of the squares' maxima of the plane `(h, w) ↦ x (h, w, k)`.
-/
import proofs.«104380_j50319836839992_1_alg».proof.Proof.ValuePatched
import proofs.«104380_j50319836839992_1_alg».proof.Proof.LibBoxMax
import proofs.«104380_j50319836839992_1_alg».proof.Proof.LibRead

set_option maxRecDepth 16384

noncomputable section

namespace Cert.Glide.Kernel

open Cert.KernelIdeal Cert.KernelIdeal.Gen Cert.KernelIdeal.Value Idealize.ShloMosaic Cert.Read Cert.BoxMax Finset

/-- After the two sums are read (`sum_sum_column`), each summand is a reading of the nested maxima of slices; push
    the coordinates through them and compare with the square's maximum written out. -/
local macro "square_by_rows" : tactic => `(tactic| (
  refine (sum_sum_column _ _ _ _ _ _ _ _ _).trans ?_
  unfold glide
  refine Finset.sum_congr rfl fun w hw => Finset.sum_congr rfl fun h hh => ?_
  rw [Finset.mem_range] at hw hh
  simp (disch := omega) only [rd3_max, rd3_slice, rd3_shapeCast_drop, boxMax, sup_range_succ, Finset.range_zero,
    Finset.sup_empty, max_bot_left, Nat.add_zero]))

variable (P0 : Vec Ideal S1x224x224x64 .f32) (q : S64x1.Idx)

theorem operand_0 : Cat1_0 P0 ⟨0, by decide⟩ q = glide (fun h w => rd4 P0 0 h w (q 0).val) 1 224 := by
  have hk : (q 0).val < 64 := (q 0).isLt
  square_by_rows

theorem operand_1 : Cat1_0 P0 ⟨1, by decide⟩ q = glide (fun h w => rd4 P0 0 h w (q 0).val) 2 223 := by
  have hk : (q 0).val < 64 := (q 0).isLt
  square_by_rows

theorem operand_2 : Cat1_0 P0 ⟨2, by decide⟩ q = glide (fun h w => rd4 P0 0 h w (q 0).val) 3 222 := by
  have hk : (q 0).val < 64 := (q 0).isLt
  square_by_rows

theorem operand_3 : Cat1_0 P0 ⟨3, by decide⟩ q = glide (fun h w => rd4 P0 0 h w (q 0).val) 4 221 := by
  have hk : (q 0).val < 64 := (q 0).isLt
  square_by_rows

theorem operand_4 : Cat1_0 P0 ⟨4, by decide⟩ q = glide (fun h w => rd4 P0 0 h w (q 0).val) 5 220 := by
  have hk : (q 0).val < 64 := (q 0).isLt
  square_by_rows

theorem operand_5 : Cat1_0 P0 ⟨5, by decide⟩ q = glide (fun h w => rd4 P0 0 h w (q 0).val) 6 219 := by
  have hk : (q 0).val < 64 := (q 0).isLt
  square_by_rows

theorem operand_6 : Cat1_0 P0 ⟨6, by decide⟩ q = glide (fun h w => rd4 P0 0 h w (q 0).val) 7 218 := by
  have hk : (q 0).val < 64 := (q 0).isLt
  square_by_rows

theorem operand_7 : Cat1_0 P0 ⟨7, by decide⟩ q = glide (fun h w => rd4 P0 0 h w (q 0).val) 8 217 := by
  have hk : (q 0).val < 64 := (q 0).isLt
  square_by_rows

theorem operand_8 : Cat1_0 P0 ⟨8, by decide⟩ q = glide (fun h w => rd4 P0 0 h w (q 0).val) 9 216 := by
  have hk : (q 0).val < 64 := (q 0).isLt
  square_by_rows

theorem operand_9 : Cat1_0 P0 ⟨9, by decide⟩ q = glide (fun h w => rd4 P0 0 h w (q 0).val) 10 215 := by
  have hk : (q 0).val < 64 := (q 0).isLt
  square_by_rows

/-- All ten at once: operand `n` uses windows of size `n + 1` over `224 - n` positions per axis. -/
theorem operand_all (n : Fin 10) :
    Cat1_0 P0 n q = glide (fun h w => rd4 P0 0 h w (q 0).val) (n.val + 1) (224 - n.val) :=
  match n with
  | ⟨0, _⟩ => operand_0 P0 q
  | ⟨1, _⟩ => operand_1 P0 q
  | ⟨2, _⟩ => operand_2 P0 q
  | ⟨3, _⟩ => operand_3 P0 q
  | ⟨4, _⟩ => operand_4 P0 q
  | ⟨5, _⟩ => operand_5 P0 q
  | ⟨6, _⟩ => operand_6 P0 q
  | ⟨7, _⟩ => operand_7 P0 q
  | ⟨8, _⟩ => operand_8 P0 q
  | ⟨9, _⟩ => operand_9 P0 q

end Cert.Glide.Kernel

end
-- ==== Proof.KernelValue.lean ====
/-
  The idealized kernel's result array.  Grid point `t` (one per batch entry) loads block `t` of the input with its
  two trailing axes merged — the `[1, 224, 224, 64]` slab of batch entry `t` — and writes block `t` of the output,
  a `[1, 8, 8, 10]` slab.  What it writes at `(0, d, e, n)` is operand `n` of the body's concatenation at row
  `d·8 + e`, clamped below at zero, plus one; by the reading of the ten operands that is the sum of the maxima of the
  `(n + 1) × (n + 1)` squares of the plane of batch entry `t` and merged channel `d·8 + e`.  The eight output blocks
  tile the output array, so the array ends holding one function of the merged input, and the merged input is the
  host's reshape of the argument.
-/
import proofs.«104380_j50319836839992_1_alg».proof.Proof.ValuePatched
import Idealize.ShloMosaic.Lib.StableHlo.Run
import proofs.«104380_j50319836839992_1_alg».proof.Proof.LibBoxMax
import proofs.«104380_j50319836839992_1_alg».proof.Proof.LibRead
import proofs.«104380_j50319836839992_1_alg».proof.Proof.Spec
import proofs.«104380_j50319836839992_1_alg».proof.Proof.KernelScales

set_option maxRecDepth 16384

noncomputable section

namespace Cert.Glide.Kernel

open Cert.KernelIdeal Cert.KernelIdeal.Gen Cert.KernelIdeal.Value Idealize.ShloMosaic Idealize.ShloMosaic.TcCoe
open Idealize.SL.Sem Cert.Read Cert.BoxMax Cert.Glide
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-- What the body leaves in the output block, from the loaded block `x0`, entry by entry. -/
theorem out_apply (x0 : Vec Ideal S1x224x224x64 .f32) (j : S1x8x8x10.Idx) :
    out0_1 x0 j
      = max (glide (fun h w => rd4 x0 0 h w ((j 1).val * 8 + (j 2).val)) ((j 3).val + 1) (224 - (j 3).val))
            (Ideal.ofBits .f32 0x00000000#32)
          + Ideal.ofBits .f32 0x3F800000#32 := by
  unfold out0_1
  simp only [View.ld_unit_zero (S := S1x224x224x64) hz4]
  refine (canon1_eq x0 j).trans ?_
  show max (Cat1_0 x0 (csel1_0 j) (ix1_0 j)) (Ideal.ofBits .f32 0x00000000#32) + Ideal.ofBits .f32 0x3F800000#32 = _
  rw [operand_all x0 (ix1_0 j) (csel1_0 j)]

/-- The printed index maps over the eight grid points: both windows sit at block `t` of the leading axis. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- The input block at point `t`, read at coordinates, is batch entry `t` of the merged input. -/
theorem blk_read (c : Dev nD) (t : Fin cfg0.N) (h w k : ℕ) :
    rd4 (a := 224) (b := 224) (c := 64) (n := 1) (iblk m c 0 t) 0 h w k
      = rd4 (a := 224) (b := 224) (c := 64) (n := 8) (V m c main_v0) t.val h w k := by
  have ht : t.val < 8 := lt_of_lt_of_eq t.isLt N_0
  obtain ⟨e0, e1, e2, e3, -⟩ := idx_facts t
  by_cases hh : h < 224 ∧ w < 224 ∧ k < 64
  · rw [rd4_of_lt _ Nat.one_pos hh.1 hh.2.1 hh.2.2, rd4_of_lt _ ht hh.1 hh.2.1 hh.2.2]
    show V m c main_v0 (((cfg0.win 0).blk t).view.emb _) = V m c main_v0 _
    refine congrArg (V m c main_v0) (funext fun a => Fin.ext ?_)
    match a with
    | ⟨0, _⟩ => show win0_0.index t (0 : Fin 4) * 1 + 1 * 0 = t.val; omega
    | ⟨1, _⟩ => show win0_0.index t (1 : Fin 4) * 224 + 1 * h = h; omega
    | ⟨2, _⟩ => show win0_0.index t (2 : Fin 4) * 224 + 1 * w = w; omega
    | ⟨3, _⟩ => show win0_0.index t (3 : Fin 4) * 64 + 1 * k = k; omega
  · unfold rd4
    rw [dif_neg fun H => hh ⟨H.2.1, H.2.2.1, H.2.2.2⟩, dif_neg fun H => hh ⟨H.2.1, H.2.2.1, H.2.2.2⟩]

/-- WHAT POINT `t` WRITES BACK is block `t` of `G4` of the merged input as the region finds it. -/
theorem flushed_eq (c : Dev nD) (t : Fin cfg0.N) :
    (dats m 0 c).flushed 1 t = ((cfg0.win 1).blk t).view.read (Elt Ideal) (G4 (V m c main_v0)) := by
  rw [flushed1]
  obtain ⟨-, -, -, -, e0, e1, e2, e3⟩ := idx_facts t
  funext j
  have hj0 : (j 0).val < 1 := (j 0).isLt
  show out0_1 (iblk m c 0 t) j = G4 (V m c main_v0) (((cfg0.win 1).blk t).view.emb j)
  refine (out_apply (iblk m c 0 t) j).trans ?_
  have hP : (fun h w => rd4 (a := 224) (b := 224) (c := 64) (n := 1) (iblk m c 0 t) 0 h w ((j 1).val * 8 + (j 2).val))
      = fun h w => rd4 (a := 224) (b := 224) (c := 64) (n := 8) (V m c main_v0) t.val h w ((j 1).val * 8 + (j 2).val) :=
    funext fun h => funext fun w => blk_read m c t h w _
  rw [hP]
  have c0 : ((((cfg0.win 1).blk t).view.emb j) 0).val = t.val := by
    show win0_1.index t (0 : Fin 4) * 1 + 1 * (j 0).val = t.val; omega
  have c1 : ((((cfg0.win 1).blk t).view.emb j) 1).val = (j 1).val := by
    show win0_1.index t (1 : Fin 4) * 8 + 1 * (j 1).val = (j 1).val; omega
  have c2 : ((((cfg0.win 1).blk t).view.emb j) 2).val = (j 2).val := by
    show win0_1.index t (2 : Fin 4) * 8 + 1 * (j 2).val = (j 2).val; omega
  have c3 : ((((cfg0.win 1).blk t).view.emb j) 3).val = (j 3).val := by
    show win0_1.index t (3 : Fin 4) * 10 + 1 * (j 3).val = (j 3).val; omega
  unfold G4
  rw [c0, c1, c2, c3]

/-- An index of the output array is in point `t`'s block iff its leading coordinate is `t`. -/
theorem mem_blk (t : Fin cfg0.N) (i : S8x8x8x10.Idx) :
    i ∈ ((cfg0.win 1).blk t).view.set ↔ ∀ a : Fin 4, win0_1.index t a * S1x8x8x10.size a ≤ (i a).val
      ∧ (i a).val < win0_1.index t a * S1x8x8x10.size a + S1x8x8x10.size a := by
  show i ∈ ((View.whole main_v1).slice (win0_1.rect t)).set ↔ _
  rw [View.set_slice_whole, Rect.mem_set_unit]
  exact Iff.rfl

/-- Every index of the output array is in the block of the point its leading coordinate names. -/
theorem cover (i : S8x8x8x10.Idx) :
    ∃ t : Fin cfg0.N, (cfg0.win 1).flush t = true ∧ i ∈ ((cfg0.win 1).blk t).view.set := by
  have h0 : (i 0).val < 8 := (i 0).isLt
  have h1 : (i 1).val < 8 := (i 1).isLt
  have h2 : (i 2).val < 8 := (i 2).isLt
  have h3 : (i 3).val < 10 := (i 3).isLt
  let t : Fin cfg0.N := ⟨(i 0).val, by rw [show cfg0.N = 8 from N_0]; exact h0⟩
  obtain ⟨-, -, -, -, e0, e1, e2, e3⟩ := idx_facts t
  have e0' : win0_1.index t (0 : Fin 4) = (i 0).val := e0
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 8 ≤ (i 1).val ∧ (i 1).val < win0_1.index t (1 : Fin 4) * 8 + 8; omega
  | ⟨2, _⟩ => show win0_1.index t (2 : Fin 4) * 8 ≤ (i 2).val ∧ (i 2).val < win0_1.index t (2 : Fin 4) * 8 + 8; omega
  | ⟨3, _⟩ => show win0_1.index t (3 : Fin 4) * 10 ≤ (i 3).val ∧ (i 3).val < win0_1.index t (3 : Fin 4) * 10 + 10; omega

/-- The merged input the region finds is the host's reshape of the argument. -/
theorem V_merged (c : Dev nD) :
    (V m c main_v0 : S8x224x224x64.Idx → EReal)
      = shapeCast S8x224x224x64 (m ((c : Thread nD τ).loc main_arg0))
          Facts₀.shapeCasts_S8x224x224x8x8_S8x224x224x64 := by
  dsimp only [Gen.V, Gen.hostOps0]
  after_results
  rfl

/-- THE ARRAY after the run: `G` of the argument. -/
theorem final (c : Dev nD) : (dats m 0 c).arrAt 1 cfg0.N = G (m ((c : Thread nD τ).loc main_arg0)) := by
  refine ((dats m 0 c).arrAt_eq_of_cover 1 (G4 (V m c main_v0)) (fun t _ => flushed_eq m c t) cover).trans ?_
  rw [V_merged]
  exact G4_shapeCast _ _

/-- The idealized kernel's run: the result array ends at `G` of the argument, the argument unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.Glide.Kernel

end
-- ==== Proof.LibWindowMax.lean ====
/-
  The host's `reduce_window` with `max` on the extended reals, known by its upper bounds.  The operation folds
  `max` from the initial value over the window's positions; so its value at `j` is at most `c` exactly when the
  initial value and every operand entry under the window at `j` are (`reduceWindow_max_le_iff`, for a window that
  stays inside the operand).  For a `[B, H, W, D, C]` array pooled with a `1 × s × s × 1 × 1` window at unit
  strides without padding from the initial value `⊥`, the entry at `(b, h, w, d, e)` is at most `c` exactly when
  the `s × s` entries `(b, h + i, w + j, d, e)` are (`reduceWindow_box_le_iff`).
-/
import Idealize.ShloMosaic.PureOps.Contract
import Idealize.ShloMosaic.Lib.ValueIdx
import proofs.«104380_j50319836839992_1_alg».proof.Proof.LibBoxMax
import proofs.«104380_j50319836839992_1_alg».proof.Proof.LibRead

noncomputable section

namespace Cert.WindowMax

open Idealize.ShloMosaic Idealize.ShloMosaic.ValueIdx Cert.Read

/-- `reduce_window` with `max`, a window inside the operand: bounded by `c` iff the initial value and every
    entry under the window are. -/
theorem reduceWindow_max_le_iff {s t u : Shape} (window strides lo hi : Fin s.rank → ℕ) (x : s.Idx → EReal)
    (init : u.Idx → EReal) (h : s.ReduceWindows window strides lo hi t) (hu : 0 < u.numel) (j : t.Idx)
    (hin : ∀ (q : (⟨s.rank, window⟩ : Shape).Idx) (a : Fin s.rank),
      lo a ≤ (j (a.cast h.1.symm)).val * strides a + (q a).val
        ∧ (j (a.cast h.1.symm)).val * strides a + (q a).val - lo a < s.size a) (c : EReal) :
    Host.reduceWindow max window strides lo hi x init h hu j ≤ c ↔
      init (Shape.Idx.first hu) ≤ c ∧ ∀ q : (⟨s.rank, window⟩ : Shape).Idx,
        x (fun a => ⟨(j (a.cast h.1.symm)).val * strides a + (q a).val - lo a, (hin q a).2⟩) ≤ c := by
  unfold Host.reduceWindow
  dsimp only
  rw [Cert.BoxMax.foldl_max_le_iff]
  refine and_congr Iff.rfl ⟨fun H q => ?_, fun H n _ => ?_⟩
  · obtain ⟨n, rfl⟩ := (⟨s.rank, window⟩ : Shape).rowMajor.symm.surjective q
    have := H n (List.mem_finRange n)
    rwa [dif_pos (hin _)] at this
  · rw [dif_pos (hin ((⟨s.rank, window⟩ : Shape).rowMajor.symm n))]
    exact H _

/-- Pooling a `[B, H, W, D, C]` array with a `1 × s × s × 1 × 1` window (unit strides, no padding, initial
    value `⊥`): the entry at `(b, h, w, d, e)` is bounded by `c` iff the `s × s` entries under it are. -/
theorem reduceWindow_box_le_iff {B H W D C H' W' s : ℕ} (x : (⟨5, ![B, H, W, D, C]⟩ : Shape).Idx → EReal)
    (init : (⟨0, ![]⟩ : Shape).Idx → EReal)
    (hw : Shape.ReduceWindows (s := ⟨5, ![B, H, W, D, C]⟩) ![1, s, s, 1, 1] ![1, 1, 1, 1, 1] ![0, 0, 0, 0, 0]
      ![0, 0, 0, 0, 0] ⟨5, ![B, H', W', D, C]⟩)
    (hu : 0 < (⟨0, ![]⟩ : Shape).numel) (hinit : init (Shape.Idx.first hu) = ⊥) (hH : H' + s ≤ H + 1)
    (hW : W' + s ≤ W + 1) (b : Fin B) (h : Fin H') (w : Fin W') (d : Fin D) (e : Fin C) (cc : EReal) :
    Host.reduceWindow max ![1, s, s, 1, 1] ![1, 1, 1, 1, 1] ![0, 0, 0, 0, 0] ![0, 0, 0, 0, 0] x init hw hu
        (ix5 b h w d e) ≤ cc
      ↔ ∀ i < s, ∀ j < s, rd5 x b.val (h.val + i) (w.val + j) d.val e.val ≤ cc := by
  have hb := b.isLt; have hh := h.isLt; have hww := w.isLt; have hd := d.isLt; have he := e.isLt
  refine (reduceWindow_max_le_iff _ _ _ _ x init hw hu _ ?hin cc).trans ?_
  case hin =>
    intro q a
    have q0 : (q 0).val < 1 := (q 0).isLt
    have q1 : (q 1).val < s := (q 1).isLt
    have q2 : (q 2).val < s := (q 2).isLt
    have q3 : (q 3).val < 1 := (q 3).isLt
    have q4 : (q 4).val < 1 := (q 4).isLt
    match a with
    | ⟨0, _⟩ => show 0 ≤ b.val * 1 + (q 0).val ∧ b.val * 1 + (q 0).val - 0 < B; omega
    | ⟨1, _⟩ => show 0 ≤ h.val * 1 + (q 1).val ∧ h.val * 1 + (q 1).val - 0 < H; omega
    | ⟨2, _⟩ => show 0 ≤ w.val * 1 + (q 2).val ∧ w.val * 1 + (q 2).val - 0 < W; omega
    | ⟨3, _⟩ => show 0 ≤ d.val * 1 + (q 3).val ∧ d.val * 1 + (q 3).val - 0 < D; omega
    | ⟨4, _⟩ => show 0 ≤ e.val * 1 + (q 4).val ∧ e.val * 1 + (q 4).val - 0 < C; omega
  rw [hinit]
  constructor
  · rintro ⟨-, Hq⟩ i hi j hj
    rw [rd5_of_lt x hb (by omega : h.val + i < H) (by omega : w.val + j < W) hd he]
    refine le_of_eq_of_le (congrArg x (funext fun a => Fin.ext ?_))
      (Hq (ix5 (0 : Fin 1) (⟨i, hi⟩ : Fin s) (⟨j, hj⟩ : Fin s) (0 : Fin 1) (0 : Fin 1)))
    match a with
    | ⟨0, _⟩ => show b.val = b.val * 1 + 0 - 0; omega
    | ⟨1, _⟩ => show h.val + i = h.val * 1 + i - 0; omega
    | ⟨2, _⟩ => show w.val + j = w.val * 1 + j - 0; omega
    | ⟨3, _⟩ => show d.val = d.val * 1 + 0 - 0; omega
    | ⟨4, _⟩ => show e.val = e.val * 1 + 0 - 0; omega
  · intro Hb
    refine ⟨bot_le, fun q => ?_⟩
    have q0 : (q 0).val < 1 := (q 0).isLt
    have q1 : (q 1).val < s := (q 1).isLt
    have q2 : (q 2).val < s := (q 2).isLt
    have q3 : (q 3).val < 1 := (q 3).isLt
    have q4 : (q 4).val < 1 := (q 4).isLt
    have := Hb (q 1).val q1 (q 2).val q2
    rw [rd5_of_lt x hb (by omega : h.val + (q 1).val < H) (by omega : w.val + (q 2).val < W) hd he] at this
    refine le_of_eq_of_le (congrArg x (funext fun a => Fin.ext ?_)) this
    match a with
    | ⟨0, _⟩ => show b.val * 1 + (q 0).val - 0 = b.val; omega
    | ⟨1, _⟩ => show h.val * 1 + (q 1).val - 0 = h.val + (q 1).val; omega
    | ⟨2, _⟩ => show w.val * 1 + (q 2).val - 0 = w.val + (q 2).val; omega
    | ⟨3, _⟩ => show d.val * 1 + (q 3).val - 0 = d.val; omega
    | ⟨4, _⟩ => show e.val * 1 + (q 4).val - 0 = e.val; omega

end Cert.WindowMax

end
-- ==== Proof.LibHostSum.lean ====
/-
  The host's float sum over the two middle axes of a `[A, B, C, D, E]` array, at the exact values: the entry of
  the `[A, D, E]` result at `(p, d, e)` is the initial value plus the double sum over `h` and `w` of the entries
  `(p, h, w, d, e)`.  The indices that reduce to `(p, d, e)` are exactly those with these outer coordinates, one for
  each pair `(h, w)`.
-/
import Idealize.ShloMosaic.Lib.ValueIdx
import Idealize.ShloMosaic.PureOps.Ideal.Laws

noncomputable section

namespace Cert.HostSum

open Idealize.ShloMosaic Idealize.ShloMosaic.ValueIdx

theorem hostReduceAdd_mid2 {A B C D E : ℕ}
    (h' : Shape.ReducesTo (s := ⟨5, ![A, B, C, D, E]⟩) [1, 2] ⟨3, ![A, D, E]⟩)
    (x : (⟨5, ![A, B, C, D, E]⟩ : Shape).Idx → EReal) (init : EReal) (p : Fin A) (d : Fin D) (e : Fin E) :
    Ideal.hostReduceAdd h' x init (ix3 p d e) = init + ∑ h : Fin B, ∑ w : Fin C, x (ix5 p h w d e) := by
  unfold Ideal.hostReduceAdd
  refine congrArg (init + ·) ?_
  rw [← Fintype.sum_prod_type' (fun (h : Fin B) (w : Fin C) => x (ix5 p h w d e))]
  have back : ∀ i : (⟨5, ![A, B, C, D, E]⟩ : Shape).Idx, h'.drop i = ix3 p d e →
      ix5 p (⟨(i 1).val, (i 1).isLt⟩ : Fin B) (⟨(i 2).val, (i 2).isLt⟩ : Fin C) d e = i := by
    intro i hd
    have e0 : (i 0).val = p.val := congrArg Fin.val (congrFun hd 0)
    have e3 : (i 3).val = d.val := congrArg Fin.val (congrFun hd 1)
    have e4 : (i 4).val = e.val := congrArg Fin.val (congrFun hd 2)
    funext ax
    apply Fin.ext
    match ax with
    | ⟨0, _⟩ => exact e0.symm
    | ⟨1, _⟩ => rfl
    | ⟨2, _⟩ => rfl
    | ⟨3, _⟩ => exact e3.symm
    | ⟨4, _⟩ => exact e4.symm
  refine Finset.sum_nbij' (fun i => ((⟨(i 1).val, (i 1).isLt⟩ : Fin B), (⟨(i 2).val, (i 2).isLt⟩ : Fin C)))
    (fun pr => ix5 p pr.1 pr.2 d e) ?_ ?_ ?_ ?_ ?_
  · intro i _; exact Finset.mem_univ _
  · intro pr _
    rw [Finset.mem_filter]
    refine ⟨Finset.mem_univ _, funext fun ax => Fin.ext ?_⟩
    match ax with
    | ⟨0, _⟩ => rfl
    | ⟨1, _⟩ => rfl
    | ⟨2, _⟩ => rfl
  · intro i hi
    exact back i (Finset.mem_filter.mp hi).2
  · intro pr _; rfl
  · intro i hi
    exact congrArg x (back i (Finset.mem_filter.mp hi).2).symm

end Cert.HostSum

end
-- ==== Proof.LibPooledSum.lean ====
/-
  Pool, then sum.  A `[B, M, M, D, C]` array of extended reals is max-pooled on the host over its two middle axes
  with an `s × s` window (unit strides, no padding, initial value `⊥`), and the `[B, N, N, D, C]` result
  (`N + s = M + 1`) is summed on the host over those two axes from the initial value `0`.  At the exact values the
  entry `(b, d, e)` of the result is the sum, over the `N × N` corners, of the maxima of the `s × s` squares of the
  plane `(h, w) ↦ x (b, h, w, d, e)`: each pooled entry has the same upper bounds as the square's maximum, and the
  host's sum over the two axes is the double sum over their coordinates.
-/
import proofs.«104380_j50319836839992_1_alg».proof.Proof.LibBoxMax
import proofs.«104380_j50319836839992_1_alg».proof.Proof.LibRead
import proofs.«104380_j50319836839992_1_alg».proof.Proof.LibWindowMax
import proofs.«104380_j50319836839992_1_alg».proof.Proof.LibHostSum

noncomputable section

namespace Cert.PooledSum

open Idealize.ShloMosaic Idealize.ShloMosaic.ValueIdx Cert.Read Cert.BoxMax Finset

theorem pooled_sum {B M D C N s : ℕ} (x : (⟨5, ![B, M, M, D, C]⟩ : Shape).Idx → EReal)
    (initm init0 : (⟨0, ![]⟩ : Shape).Idx → EReal)
    (hw : Shape.ReduceWindows (s := ⟨5, ![B, M, M, D, C]⟩) ![1, s, s, 1, 1] ![1, 1, 1, 1, 1] ![0, 0, 0, 0, 0]
      ![0, 0, 0, 0, 0] ⟨5, ![B, N, N, D, C]⟩)
    (hu : 0 < (⟨0, ![]⟩ : Shape).numel)
    (h' : Shape.ReducesTo (s := ⟨5, ![B, N, N, D, C]⟩) [1, 2] ⟨3, ![B, D, C]⟩)
    (hu' : 0 < (⟨0, ![]⟩ : Shape).numel)
    (hinit : initm (Shape.Idx.first hu) = ⊥) (hzero : init0 (Shape.Idx.first hu') = 0) (hN : N + s = M + 1)
    (b : Fin B) (d : Fin D) (e : Fin C) :
    Host.reduceAdd (F := Ideal) (φ := .f32)
        (Host.reduceWindow (α := EReal) max ![1, s, s, 1, 1] ![1, 1, 1, 1, 1] ![0, 0, 0, 0, 0] ![0, 0, 0, 0, 0] x initm hw hu)
        init0 h' hu' (ix3 b d e)
      = glide (fun h w => rd5 x b.val h w d.val e.val) s N := by
  show Ideal.hostReduceAdd h' _ (init0 (Shape.Idx.first hu')) (ix3 b d e) = _
  rw [Cert.HostSum.hostReduceAdd_mid2, hzero, zero_add, glide_comm,
    ← Fin.sum_univ_eq_sum_range (fun h => ∑ w ∈ range N, boxMax (fun h w => rd5 x b.val h w d.val e.val) s h w) N]
  refine Finset.sum_congr rfl fun h _ => ?_
  rw [← Fin.sum_univ_eq_sum_range (fun w => boxMax (fun h w => rd5 x b.val h w d.val e.val) s h.val w) N]
  refine Finset.sum_congr rfl fun w _ => ?_
  refine eq_of_forall_ge_iff fun cc => ?_
  rw [boxMax_le_iff]
  exact Cert.WindowMax.reduceWindow_box_le_iff x initm hw hu hinit (by omega) (by omega) b h w d e cc

end Cert.PooledSum

end
-- ==== Proof.ReferenceValue.lean ====
/-
  The idealized reference's result.  For each window size `s = 1, …, 10` the reference max-pools the argument over its
  two spatial axes with an `s × s` window from `-∞` and sums the pooled array over those axes from `0`: at `(b, d, e)`
  the sum over the corners of the squares' maxima of the plane `(h, w) ↦ x (b, h, w, d, e)`.  The ten `[8, 8, 8]`
  results, each with a trailing unit axis added, are joined along that axis, so entry `(b, d, e, n)` of the join is
  the `n`-th of them at `(b, d, e)`; relu and the added one finish it.
-/
import proofs.«104380_j50319836839992_1_alg».proof.Proof.Gen.ReferenceIdeal.Read
import Idealize.ShloMosaic.Lib.Pipeline.Value
import Idealize.ShloMosaic.Lib.ValueIdx
import Idealize.ShloMosaic.PureOps.Ideal.Laws
import proofs.«104380_j50319836839992_1_alg».proof.Proof.LibPooledSum
import proofs.«104380_j50319836839992_1_alg».proof.Proof.Spec

set_option maxRecDepth 16384

noncomputable section

namespace Cert.Glide.Reference

open Cert.ReferenceIdeal Cert.ReferenceIdeal.Gen Cert.ReferenceIdeal.Read Idealize.ShloMosaic Idealize.ShloMosaic.ValueIdx
open Cert.Read Cert.BoxMax Cert.Glide

/-- The word `0xFF800000` is `-∞`, the least extended real. -/
theorem neg_inf : Ideal.ofBits .f32 0xFF800000#32 = ⊥ := by simp [Ideal.ofBits, Ideal.ieee]

variable (x : (⟨S8x224x224x8x8, .f32⟩ : BufTy).Contents (Elt Ideal))

/-- Window size 1: pooled, then summed. -/
theorem pooled_0 (k : S8x8x8.Idx) :
    val_main_v2 (F := Ideal) x k
      = glide (fun h w => rd5 x (k 0).val h w (k 1).val (k 2).val) 1 224 := by
  obtain ⟨b, d, e, rfl⟩ : ∃ (b d e : Fin 8), k = ix3 b d e := ⟨k 0, k 1, k 2, eq_ix3 k⟩
  unfold val_main_v2 val_main_v1
  exact Cert.PooledSum.pooled_sum x _ _ _ _ _ _
    ((val_main_v0_apply _).trans ((val_main_cst_apply _).trans neg_inf))
    ((val_main_cst_0_apply _).trans Ideal.ofBits_zero_f32) (by norm_num) b d e

/-- Window size 2: pooled, then summed. -/
theorem pooled_1 (k : S8x8x8.Idx) :
    val_main_v5 (F := Ideal) x k
      = glide (fun h w => rd5 x (k 0).val h w (k 1).val (k 2).val) 2 223 := by
  obtain ⟨b, d, e, rfl⟩ : ∃ (b d e : Fin 8), k = ix3 b d e := ⟨k 0, k 1, k 2, eq_ix3 k⟩
  unfold val_main_v5 val_main_v4
  exact Cert.PooledSum.pooled_sum x _ _ _ _ _ _
    ((val_main_v3_apply _).trans ((val_main_cst_1_apply _).trans neg_inf))
    ((val_main_cst_2_apply _).trans Ideal.ofBits_zero_f32) (by norm_num) b d e

/-- Window size 3: pooled, then summed. -/
theorem pooled_2 (k : S8x8x8.Idx) :
    val_main_v8 (F := Ideal) x k
      = glide (fun h w => rd5 x (k 0).val h w (k 1).val (k 2).val) 3 222 := by
  obtain ⟨b, d, e, rfl⟩ : ∃ (b d e : Fin 8), k = ix3 b d e := ⟨k 0, k 1, k 2, eq_ix3 k⟩
  unfold val_main_v8 val_main_v7
  exact Cert.PooledSum.pooled_sum x _ _ _ _ _ _
    ((val_main_v6_apply _).trans ((val_main_cst_3_apply _).trans neg_inf))
    ((val_main_cst_4_apply _).trans Ideal.ofBits_zero_f32) (by norm_num) b d e

/-- Window size 4: pooled, then summed. -/
theorem pooled_3 (k : S8x8x8.Idx) :
    val_main_v11 (F := Ideal) x k
      = glide (fun h w => rd5 x (k 0).val h w (k 1).val (k 2).val) 4 221 := by
  obtain ⟨b, d, e, rfl⟩ : ∃ (b d e : Fin 8), k = ix3 b d e := ⟨k 0, k 1, k 2, eq_ix3 k⟩
  unfold val_main_v11 val_main_v10
  exact Cert.PooledSum.pooled_sum x _ _ _ _ _ _
    ((val_main_v9_apply _).trans ((val_main_cst_5_apply _).trans neg_inf))
    ((val_main_cst_6_apply _).trans Ideal.ofBits_zero_f32) (by norm_num) b d e

/-- Window size 5: pooled, then summed. -/
theorem pooled_4 (k : S8x8x8.Idx) :
    val_main_v14 (F := Ideal) x k
      = glide (fun h w => rd5 x (k 0).val h w (k 1).val (k 2).val) 5 220 := by
  obtain ⟨b, d, e, rfl⟩ : ∃ (b d e : Fin 8), k = ix3 b d e := ⟨k 0, k 1, k 2, eq_ix3 k⟩
  unfold val_main_v14 val_main_v13
  exact Cert.PooledSum.pooled_sum x _ _ _ _ _ _
    ((val_main_v12_apply _).trans ((val_main_cst_7_apply _).trans neg_inf))
    ((val_main_cst_8_apply _).trans Ideal.ofBits_zero_f32) (by norm_num) b d e

/-- Window size 6: pooled, then summed. -/
theorem pooled_5 (k : S8x8x8.Idx) :
    val_main_v17 (F := Ideal) x k
      = glide (fun h w => rd5 x (k 0).val h w (k 1).val (k 2).val) 6 219 := by
  obtain ⟨b, d, e, rfl⟩ : ∃ (b d e : Fin 8), k = ix3 b d e := ⟨k 0, k 1, k 2, eq_ix3 k⟩
  unfold val_main_v17 val_main_v16
  exact Cert.PooledSum.pooled_sum x _ _ _ _ _ _
    ((val_main_v15_apply _).trans ((val_main_cst_9_apply _).trans neg_inf))
    ((val_main_cst_10_apply _).trans Ideal.ofBits_zero_f32) (by norm_num) b d e

/-- Window size 7: pooled, then summed. -/
theorem pooled_6 (k : S8x8x8.Idx) :
    val_main_v20 (F := Ideal) x k
      = glide (fun h w => rd5 x (k 0).val h w (k 1).val (k 2).val) 7 218 := by
  obtain ⟨b, d, e, rfl⟩ : ∃ (b d e : Fin 8), k = ix3 b d e := ⟨k 0, k 1, k 2, eq_ix3 k⟩
  unfold val_main_v20 val_main_v19
  exact Cert.PooledSum.pooled_sum x _ _ _ _ _ _
    ((val_main_v18_apply _).trans ((val_main_cst_11_apply _).trans neg_inf))
    ((val_main_cst_12_apply _).trans Ideal.ofBits_zero_f32) (by norm_num) b d e

/-- Window size 8: pooled, then summed. -/
theorem pooled_7 (k : S8x8x8.Idx) :
    val_main_v23 (F := Ideal) x k
      = glide (fun h w => rd5 x (k 0).val h w (k 1).val (k 2).val) 8 217 := by
  obtain ⟨b, d, e, rfl⟩ : ∃ (b d e : Fin 8), k = ix3 b d e := ⟨k 0, k 1, k 2, eq_ix3 k⟩
  unfold val_main_v23 val_main_v22
  exact Cert.PooledSum.pooled_sum x _ _ _ _ _ _
    ((val_main_v21_apply _).trans ((val_main_cst_13_apply _).trans neg_inf))
    ((val_main_cst_14_apply _).trans Ideal.ofBits_zero_f32) (by norm_num) b d e

/-- Window size 9: pooled, then summed. -/
theorem pooled_8 (k : S8x8x8.Idx) :
    val_main_v26 (F := Ideal) x k
      = glide (fun h w => rd5 x (k 0).val h w (k 1).val (k 2).val) 9 216 := by
  obtain ⟨b, d, e, rfl⟩ : ∃ (b d e : Fin 8), k = ix3 b d e := ⟨k 0, k 1, k 2, eq_ix3 k⟩
  unfold val_main_v26 val_main_v25
  exact Cert.PooledSum.pooled_sum x _ _ _ _ _ _
    ((val_main_v24_apply _).trans ((val_main_cst_15_apply _).trans neg_inf))
    ((val_main_cst_16_apply _).trans Ideal.ofBits_zero_f32) (by norm_num) b d e

/-- Window size 10: pooled, then summed. -/
theorem pooled_9 (k : S8x8x8.Idx) :
    val_main_v29 (F := Ideal) x k
      = glide (fun h w => rd5 x (k 0).val h w (k 1).val (k 2).val) 10 215 := by
  obtain ⟨b, d, e, rfl⟩ : ∃ (b d e : Fin 8), k = ix3 b d e := ⟨k 0, k 1, k 2, eq_ix3 k⟩
  unfold val_main_v29 val_main_v28
  exact Cert.PooledSum.pooled_sum x _ _ _ _ _ _
    ((val_main_v27_apply _).trans ((val_main_cst_17_apply _).trans neg_inf))
    ((val_main_cst_18_apply _).trans Ideal.ofBits_zero_f32) (by norm_num) b d e

/-- The ten summands of the join, each an `[8, 8, 8]` result with a trailing unit axis. -/
abbrev joined : Fin 10 → (S8x8x8x1.Idx → Elt Ideal .f32) := fun n => match n with
  | ⟨0, _⟩ => val_main_v30 (F := Ideal) x
  | ⟨1, _⟩ => val_main_v31 (F := Ideal) x
  | ⟨2, _⟩ => val_main_v32 (F := Ideal) x
  | ⟨3, _⟩ => val_main_v33 (F := Ideal) x
  | ⟨4, _⟩ => val_main_v34 (F := Ideal) x
  | ⟨5, _⟩ => val_main_v35 (F := Ideal) x
  | ⟨6, _⟩ => val_main_v36 (F := Ideal) x
  | ⟨7, _⟩ => val_main_v37 (F := Ideal) x
  | ⟨8, _⟩ => val_main_v38 (F := Ideal) x
  | ⟨9, _⟩ => val_main_v39 (F := Ideal) x

/-- Summand `n` at `(b, d, e, 0)`: window size `n + 1`. -/
theorem joined_apply (n : Fin 10) (i' : S8x8x8x1.Idx) :
    joined x n i'
      = glide (fun h w => rd5 x (i' 0).val h w (i' 1).val (i' 2).val) (n.val + 1) (224 - n.val) :=
  match n with
  | ⟨0, _⟩ => (val_main_v30_apply x i').trans (pooled_0 x (idx_main_v30 i'))
  | ⟨1, _⟩ => (val_main_v31_apply x i').trans (pooled_1 x (idx_main_v31 i'))
  | ⟨2, _⟩ => (val_main_v32_apply x i').trans (pooled_2 x (idx_main_v32 i'))
  | ⟨3, _⟩ => (val_main_v33_apply x i').trans (pooled_3 x (idx_main_v33 i'))
  | ⟨4, _⟩ => (val_main_v34_apply x i').trans (pooled_4 x (idx_main_v34 i'))
  | ⟨5, _⟩ => (val_main_v35_apply x i').trans (pooled_5 x (idx_main_v35 i'))
  | ⟨6, _⟩ => (val_main_v36_apply x i').trans (pooled_6 x (idx_main_v36 i'))
  | ⟨7, _⟩ => (val_main_v37_apply x i').trans (pooled_7 x (idx_main_v37 i'))
  | ⟨8, _⟩ => (val_main_v38_apply x i').trans (pooled_8 x (idx_main_v38 i'))
  | ⟨9, _⟩ => (val_main_v39_apply x i').trans (pooled_9 x (idx_main_v39 i'))

/-- The join at `(b, d, e, n)` is summand `n` at `(b, d, e, 0)`. -/
theorem join_apply (i : S8x8x8x10.Idx) :
    val_main_v40 (F := Ideal) x i
      = glide (fun h w => rd5 x (i 0).val h w (i 1).val (i 2).val) ((i 3).val + 1) (224 - (i 3).val) := by
  have h0 : (i 0).val < 8 := (i 0).isLt
  have h1 : (i 1).val < 8 := (i 1).isLt
  have h2 : (i 2).val < 8 := (i 2).isLt
  have h3 : (i 3).val < 10 := (i 3).isLt
  unfold val_main_v40
  show concatenate S8x8x8x10 3 (List.ofFn fun n : Fin 10 => (⟨S8x8x8x1, joined x n⟩ : (s : Shape) × (s.Idx → _))) _ i = _
  refine (concatenate_ofFn_apply (t := S8x8x8x10) (s₁ := S8x8x8x1) (3 : Fin 4) (joined x) _ rfl 1 rfl i
    ⟨(i 3).val, h3⟩ (by show (i 3).val / 1 = (i 3).val; omega)
    (ix4 (⟨(i 0).val, h0⟩ : Fin 8) (⟨(i 1).val, h1⟩ : Fin 8) (⟨(i 2).val, h2⟩ : Fin 8) (0 : Fin 1))
    (by show 0 = (i 3).val % 1; omega)
    (fun b hb => by
      match b with
      | ⟨0, _⟩ => rfl
      | ⟨1, _⟩ => rfl
      | ⟨2, _⟩ => rfl
      | ⟨3, _⟩ => exact absurd rfl hb)).trans ?_
  exact joined_apply x _ _

/-- THE REFERENCE'S RESULT is `G` of the argument. -/
theorem result_eq : val_main_v43 (F := Ideal) x = G x := by
  funext i
  rw [val_main_v43_apply, val_main_v41_apply, val_main_v42_apply, val_main_cst_19_apply, val_main_call0_v0_apply,
    val_main_call0_cst_apply, join_apply]
  rfl

end Cert.Glide.Reference

end
-- ==== Proof.lean ====
/-
  The certificate's five claims.  Both idealized programs end with one function `G` of the argument in their result
  array (Proof/Spec.lean): for each batch entry, channel pair and window size `s = 1, …, 10`, the sum over all
  positions of the maximum of the `s × s` square of the entry's plane, clamped below at zero, plus one.
  The kernel takes each square's maximum separably — a running maximum along the rows, extended by one column per
  window size, then the maximum of `s` shifted copies down the columns — and sums over one axis and then the other
  (Proof/KernelScales.lean, Proof/KernelValue.lean); the reference pools with a two-dimensional window from `-∞` and
  sums over both axes at once (Proof/ReferenceValue.lean).  A maximum does not depend on the order its terms are
  taken in, and neither does a finite sum of extended reals, so the two agree for every input: the precondition is
  not used.  The three frames are the generated frame proofs and the reference's generated run with its result
  dropped; the idealization rewrote nothing, so its claim is trivial.
-/
import proofs.«104380_j50319836839992_1_alg».proof.Defs
import proofs.«104380_j50319836839992_1_alg».proof.Proof.Gen.Kernel
import proofs.«104380_j50319836839992_1_alg».proof.Proof.Gen.Kernel.Skeleton
import proofs.«104380_j50319836839992_1_alg».proof.Proof.Gen.Kernel.Launch
import proofs.«104380_j50319836839992_1_alg».proof.Proof.Gen.Kernel.Points
import proofs.«104380_j50319836839992_1_alg».proof.Proof.Gen.Kernel.Frame
import proofs.«104380_j50319836839992_1_alg».proof.Proof.Gen.KernelIdeal
import proofs.«104380_j50319836839992_1_alg».proof.Proof.Gen.KernelIdeal.Skeleton
import proofs.«104380_j50319836839992_1_alg».proof.Proof.Gen.KernelIdeal.Launch
import proofs.«104380_j50319836839992_1_alg».proof.Proof.Gen.KernelIdeal.Points
import proofs.«104380_j50319836839992_1_alg».proof.Proof.Gen.KernelIdeal.Frame
import proofs.«104380_j50319836839992_1_alg».proof.Proof.Gen.ReferenceIdeal
import proofs.«104380_j50319836839992_1_alg».proof.Proof.Gen.ReferenceIdeal.Run
import proofs.«104380_j50319836839992_1_alg».proof.Proof.Gen.ReferenceIdeal.Read
import proofs.«104380_j50319836839992_1_alg».proof.Proof.Gen.Pre_finite_inputs
import proofs.«104380_j50319836839992_1_alg».proof.Proof.KernelValue
import proofs.«104380_j50319836839992_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference has no kernel: its frame is its run with the result forgotten. -/
theorem frame_reference : Cert.frame_ReferenceIdeal :=
  fun m ρ _ => (θ_run Cert.ReferenceIdeal.defs _ _).mono (fun _ h c => (h c).2)
    (Cert.ReferenceIdeal.Value.run (F := Ideal) m ρ)

/-- Both runs end with `G` of the (agreeing) arguments in their result arrays. -/
theorem algebraic :
    Cert.algebraic_KernelIdeal_ReferenceIdeal := by
  intro m ρ m' ρ' _ hagree
  refine ⟨fun c => Cert.Glide.G (m ((c.tc : Thread Cert.KernelIdeal.nD Cert.KernelIdeal.τ).loc Cert.KernelIdeal.main_arg0)),
    Cert.Glide.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.Glide.Reference.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
